-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x8192x768 .f32) (main_arg1 : FVec F S8192x768 .f32) (main_arg2 : FVec F S768 .f32) (main_arg3 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x8192x768 : Shape := ⟨3, ![4, 8192, 768]⟩
abbrev S8192x768 : Shape := ⟨2, ![8192, 768]⟩
abbrev S768 : Shape := ⟨1, ![768]⟩
abbrev S4x768x768 : Shape := ⟨3, ![4, 768, 768]⟩
abbrev S768x768 : Shape := ⟨2, ![768, 768]⟩
abbrev S1x768x768 : Shape := ⟨3, ![1, 768, 768]⟩
abbrev S4x768 : Shape := ⟨2, ![4, 768]⟩
abbrev S4x768x1 : Shape := ⟨3, ![4, 768, 1]⟩
abbrev S1x1x768 : Shape := ⟨3, ![1, 1, 768]⟩

abbrev nBuf : Space → Nat
  | .hbm => 5
  | .vmem => 8
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S4x8192x768, .f32⟩
  | .local _ .vmem, ⟨0, _⟩ => ⟨S4x768x768, .f32⟩
  | .local _ .vmem, ⟨1, _⟩ => ⟨S4x768x768, .f32⟩
  | .local _ .vmem, ⟨2, _⟩ => ⟨S768x768, .f32⟩
  | .local _ .vmem, ⟨3, _⟩ => ⟨S768x768, .f32⟩
  | .local _ .vmem, ⟨4, _⟩ => ⟨S768, .f32⟩
  | .local _ .vmem, ⟨5, _⟩ => ⟨S768, .f32⟩
  | .local _ .vmem, ⟨6, _⟩ => ⟨S4x768x768, .f32⟩
  | .local _ .vmem, ⟨7, _⟩ => ⟨S4x768x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x768x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4x768x768_S4x768x768_0_0_0 : ∀ a, (![0, 0, 0] : Fin 3 → Nat) a + S4x768x768.size a ≤ S4x768x768.size a
  h_S4x768x768 : 0 < S4x768x768.numel
  inb_S768x768_S768x768_0_0 : ∀ a, (![0, 0] : Fin 2 → Nat) a + S768x768.size a ≤ S768x768.size a
  h_S768x768 : 0 < S768x768.numel
  shapeCasts_S768x768_S1x768x768 : S768x768.ShapeCasts S1x768x768
  broadcasts_S1x768x768_S4x768x768 : S1x768x768.Broadcasts S4x768x768
  reduces_S4x768x768_S4x768 : S4x768x768.Reduces [2] S4x768
  shapeCasts_S4x768_S4x768x1 : S4x768.ShapeCasts S4x768x1
  broadcasts_S4x768x1_S4x768x768 : S4x768x1.Broadcasts S4x768x768
  inb_S768_S768_0 : ∀ a, (![0] : Fin 1 → Nat) a + S768.size a ≤ S768.size a
  h_S768 : 0 < S768.numel
  shapeCasts_S768_S1x1x768 : S768.ShapeCasts S1x1x768
  broadcasts_S1x1x768_S4x768x768 : S1x1x768.Broadcasts S4x768x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x768x768.size a < S4x8192x768.size a
  hwx0_0 : ∀ i : grid0.Coords, EltTy.bits .f32 = 32 ∨ (Rect.unit (s := S4x8192x768) (fun a => cc0_transform_0 i a * S4x768x768.size a) (fun a => (Pipeline.Clip.of (cc0_transform_0 i a) (S4x768x768.size a) (S4x8192x768.size a)).extent (S4x768x768.size a)) fun a => Pipeline.Clip.inb (Pipeline.Clip.ok_of (hstart0_0 i a))).WholeWords (EltTy.packing .f32)
  hwxs0_0 : ∀ i : grid0.Coords, EltTy.bits .f32 = 32 ∨ (Rect.unit (s := S4x768x768) (fun _ => 0) (fun a => (Pipeline.Clip.of (cc0_transform_0 i a) (S4x768x768.size a) (S4x8192x768.size a)).extent (S4x768x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S768x768.size a < S8192x768.size a
  hwx0_1 : ∀ i : grid0.Coords, EltTy.bits .f32 = 32 ∨ (Rect.unit (s := S8192x768) (fun a => cc0_transform_1 i a * S768x768.size a) (fun a => (Pipeline.Clip.of (cc0_transform_1 i a) (S768x768.size a) (S8192x768.size a)).extent (S768x768.size a)) fun a => Pipeline.Clip.inb (Pipeline.Clip.ok_of (hstart0_1 i a))).WholeWords (EltTy.packing .f32)
  hwxs0_1 : ∀ i : grid0.Coords, EltTy.bits .f32 = 32 ∨ (Rect.unit (s := S768x768) (fun _ => 0) (fun a => (Pipeline.Clip.of (cc0_transform_1 i a) (S768x768.size a) (S8192x768.size a)).extent (S768x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S4x768x768.size a < S4x8192x768.size a
  hwx0_4 : ∀ i : grid0.Coords, EltTy.bits .f32 = 32 ∨ (Rect.unit (s := S4x8192x768) (fun a => cc0_transform_4 i a * S4x768x768.size a) (fun a => (Pipeline.Clip.of (cc0_transform_4 i a) (S4x768x768.size a) (S4x8192x768.size a)).extent (S4x768x768.size a)) fun a => Pipeline.Clip.inb (Pipeline.Clip.ok_of (hstart0_4 i a))).WholeWords (EltTy.packing .f32)
  hwxs0_4 : ∀ i : grid0.Coords, EltTy.bits .f32 = 32 ∨ (Rect.unit (s := S4x768x768) (fun _ => 0) (fun a => (Pipeline.Clip.of (cc0_transform_4 i a) (S4x768x768.size a) (S4x8192x768.size a)).extent (S4x768x768.size a)) fun a => (Nat.zero_add _).trans_le (Pipeline.Clip.extent_le (Pipeline.Clip.ok_of (hstart0_4 i a)))).WholeWords (EltTy.packing .f32)

variable [Facts₀]

abbrev win0_0 : Pipeline.Window sig grid0 :=
  Pipeline.Window.ofSpecClip (Memref.whole main_arg0) S4x768x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S768x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S4x768x768.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S768 : Shape := ⟨1, ![768]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S8192, .i32⟩
  | .hbm, ⟨5, _⟩ => ⟨S1x8192, .i32⟩
  | .hbm, ⟨6, _⟩ => ⟨S4x8192, .i32⟩
  | .hbm, ⟨7, _⟩ => ⟨S_, .i32⟩
  | .hbm, ⟨8, _⟩ => ⟨S4x8192, .i32⟩
  | .hbm, ⟨9, _⟩ => ⟨S4x8192, .i1⟩
  | .hbm, ⟨10, _⟩ => ⟨S_, .i32⟩
  | .hbm, ⟨11, _⟩ => ⟨S4x8192, .i32⟩
  | .hbm, ⟨12, _⟩ => ⟨S4x8192, .i32⟩
  | .hbm, ⟨13, _⟩ => ⟨S4x8192, .i32⟩
  | .hbm, ⟨14, _⟩ => ⟨S4x8192x1, .i32⟩
  | .hbm, ⟨15, _⟩ => ⟨S1, .i32⟩
  | .hbm, ⟨16, _⟩ => ⟨S_, .i32⟩
  | .hbm, ⟨17, _⟩ => ⟨S4x8192x1, .i32⟩
  | .hbm, ⟨18, _⟩ => ⟨S4x8192x1, .i1⟩
  | .hbm, ⟨19, _⟩ => ⟨S1x1x1, .i32⟩
  | .hbm, ⟨20, _⟩ => ⟨S4x8192x1, .i32⟩
  | .hbm, ⟨21, _⟩ => ⟨S4x8192x1, .i1⟩
  | .hbm, ⟨22, _⟩ => ⟨S4x8192x1, .i1⟩
  | .hbm, ⟨23, _⟩ => ⟨S_, .i1⟩
  | .hbm, ⟨24, _⟩ => ⟨S4x8192, .i1⟩
  | .hbm, ⟨25, _⟩ => ⟨S4x8192x768, .f32⟩
  | .hbm, ⟨26, _⟩ => ⟨S4x8192x768, .i1⟩
  | .hbm, ⟨27, _⟩ => ⟨S_, .f32⟩
  | .hbm, ⟨28, _⟩ => ⟨S4x8192x768, .f32⟩
  | .hbm, ⟨29, _⟩ => ⟨S4x8192x768, .f32⟩
  | .hbm, ⟨30, _⟩ => ⟨S4x8192x768, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x768, .f32⟩
  | .hbm, ⟨38, _⟩ => ⟨S4x8192x768, .f32⟩
  | .hbm, ⟨39, _⟩ => ⟨S4x8192x768, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x768, .f32⟩
  | .hbm, ⟨47, _⟩ => ⟨S4x8192x768, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x768, .f32⟩
  | .hbm, ⟨53, _⟩ => ⟨S4x8192x768, .f32⟩
  | .hbm, ⟨54, _⟩ => ⟨S1x1x768, .f32⟩
  | .hbm, ⟨55, _⟩ => ⟨S4x8192x768, .f32⟩
  | .hbm, ⟨56, _⟩ => ⟨S4x8192x768, .f32⟩
  | .hbm, ⟨57, _⟩ => ⟨S1x1x768, .f32⟩
  | .hbm, ⟨58, _⟩ => ⟨S4x8192x768, .f32⟩
  | .hbm, ⟨59, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x768_0_1 : S4x8192.BroadcastsInDim S4x8192x768 (![0, 1] : Fin 2 → Fin S4x8192x768.rank)
  bcast_S_S4x8192x768 : S_.BroadcastsInDim S4x8192x768 (![] : Fin 0 → Fin S4x8192x768.rank)
  reducesTo_S4x8192x768_S4x8192_d2 : S4x8192x768.ReducesTo [2] S4x8192
  bcast_S4x8192x1_S4x8192x768_0_1_2 : S4x8192x1.BroadcastsInDim S4x8192x768 (![0, 1, 2] : Fin 3 → Fin S4x8192x768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  gather_S8192x768_S4x8192x1_S4x8192x768_2_0_n_n_0_2_1768_wf : GatherDims.WF S8192x768 S4x8192x1 S4x8192x768 [2] [0] [] [0] [] 2 ![1, 768]

variable [Facts₀]

def gather_S8192x768_S4x8192x1_S4x8192x768_2_0_n_n_0_2_1768 : GatherDims S8192x768 S4x8192x1 S4x8192x768 where
  offsetDims := [2]
  collapsedSliceDims := [0]
  operandBatchingDims := []
  startIndicesBatchingDims := []
  startIndexMap := [0]
  indexVectorDim := 2
  sliceSizes := ![1, 768]
  wf := gather_S8192x768_S4x8192x1_S4x8192x768_2_0_n_n_0_2_1768_wf

class Facts : Prop extends Facts₀ where

variable [Facts]
-- ==== Proof.WBody.lean ====
/-
  The kernel body as a transformer of its five staging buffers, for the program `Kernel`.

  The body loads the data block (4 × 768 × 768), the position block (768 × 768), the scale and the shift (768
  each) whole, loads the result's buffer (a value it never uses), and stores one value — the LayerNorm payload
  of the four loaded values — over the whole result buffer. So whatever the four input buffers hold, they are
  left as they were, and the result's buffer ends at the payload of their contents.
-/
import proofs.«114825_g83047487635803_cont_sun_m_1218_21_alg».proof.Proof.Gen.Kernel.Frame
import proofs.«114825_g83047487635803_cont_sun_m_1218_21_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body's accesses name. -/
abbrev rX : Rect S4x768x768 := Rect.unit (s := S4x768x768) ![0, 0, 0] S4x768x768.size inb_S4x768x768_S4x768x768_0_0_0
abbrev rP : Rect S768x768 := Rect.unit (s := S768x768) ![0, 0] S768x768.size inb_S768x768_S768x768_0_0
abbrev rV : Rect S768 := Rect.unit (s := S768) ![0] S768.size inb_S768_S768_0

/-- What the result's buffer holds after the body, from the contents of the four input buffers: its one store. -/
def out4 (x0 : Vec F S4x768x768 .f32) (x1 : Vec F S768x768 .f32) (x2 x3 : Vec F S768 .f32) : Vec F S4x768x768 .f32 :=
  View.canon [⟨rX, k0_pay1 (View.ld x0 rX) (View.ld x1 rP) (View.ld x2 rV) (View.ld x3 rV)⟩]

/-- The one store covers the buffer. -/
theorem cover4 (p0 : Vec F S4x768x768 .f32) (y : S4x768x768.Idx) :
    ∃ pc ∈ ([⟨rX, p0⟩] : List (View.Piece (Elt F) S4x768x768 .f32)), y ∈ pc.1.set :=
  View.cover_of_tiled [⟨rX, p0⟩] S4x768x768.size (by rfl) y

set_option maxHeartbeats 1000000 in
/-- The body on whole staging memrefs, the inputs' at contents `x0 … x3` and the result's at anything, runs to the
    continuation holding the inputs' as they were and the result's at `out4` of them. -/
theorem sound_kernel (c : Dev nD) (E : Set ℕ) (i : grid0.Coords)
    (arg1 : Memref sig .tc .vmem S4x768x768 .f32) (harg1 : arg1.IsWhole) (arg2 : Memref sig .tc .vmem S768x768 .f32) (harg2 : arg2.IsWhole)
    (arg3 : Memref sig .tc .vmem S768 .f32) (harg3 : arg3.IsWhole) (arg4 : Memref sig .tc .vmem S768 .f32) (harg4 : arg4.IsWhole)
    (arg5 : Memref sig .tc .vmem S4x768x768 .f32) (harg5 : arg5.IsWhole)
    (x0 : Vec F S4x768x768 .f32) (x1 : Vec F S768x768 .f32) (x2 x3 : Vec F S768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__embed_ln_kernel i arg1 harg1 arg2 harg2 arg3 harg3 arg4 harg4 arg5 harg5) K := by
  simp only [cc0__embed_ln_kernel_eq_skeleton]; unfold cc0__embed_ln_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

end Cert.Kernel.Body

end
-- ==== Proof.WFrame.lean ====
/-
  The word-level program leaves its four argument arrays as it found them.

  The grid's last block overhangs the arrays, so after the last fetch the tail of the data and position buffers holds
  words nothing names, and the body computes on them. The claim here does not read the result: it says only that
  the run terminates and that the four arguments end as they began. So the proof data constrains nothing about
  what the body leaves in any staging buffer (the relation that holds of any two contents): at every point the body
  is handed its five buffers at some contents, runs, and hands them back at some contents. An input array is never
  written back, so whatever the buffers held, each argument array holds at the end what it held at the start.
-/
import proofs.«114825_g83047487635803_cont_sun_m_1218_21_alg».proof.Proof.WBody
import Idealize.ShloMosaic.Lib.Pipeline.Frame
import Idealize.ShloMosaic.Lib.Pipeline.Kit

set_option maxRecDepth 16384

noncomputable section

namespace Cert.Kernel.WordFrame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: the arrays as launched, and nothing said of the staging buffers -/

/-- The relational proof data of the one pipeline on core c: the arrays as the region finds them; any contents may
    be left in any staging buffer, whatever was found there; the class invariant; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

/-! ## The body obligation -/

/-- The body at any point, on its five current staging buffers at ANY contents: it runs, and hands each buffer back
    at some contents; the invariant and what the core owes pass through unread. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0)
        ∗ owns (c : Thread nD τ) (st0_1 t) fullShare (Y 1)
        ∗ owns (c : Thread nD τ) (st0_2 t) fullShare (Y 2)
        ∗ owns (c : Thread nD τ) (st0_3 t) fullShare (Y 3)
        ∗ owns (c : Thread nD τ) (st0_4 t) fullShare (Y 4))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X)
            ∗ (∃ X, ⌜(rdat m c).after 4 t (Y 4) X⌝ ∗ owns (c : Thread nD τ) (st0_4 t) fullShare X))) := by
  rw [show (rdat m c).Φ t.succ = (rdat m c).Φ t.castSucc from rfl,
    show (rdat m c).owesAt () t.succ = (rdat m c).owesAt () t.castSucc from rfl]
  unfold bodyAt0
  iintro ⟨HΦ, Ho, H0, H1, H2, H3, H4⟩
  iapply (sound_kernel c Set.univ _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (Y 0); isplitr; · ipureintro; exact True.intro
    iexact H0
  isplitl [H1]
  · iexists (Y 1); isplitr; · ipureintro; exact True.intro
    iexact H1
  isplitl [H2]
  · iexists (Y 2); isplitr; · ipureintro; exact True.intro
    iexact H2
  isplitl [H3]
  · iexists (Y 3); isplitr; · ipureintro; exact True.intro
    iexact H3
  iexists (out4 (Y 0) (Y 1) (Y 2) (Y 3)); isplitr; · ipureintro; exact True.intro
  iexact H4

/-- The library's relational body obligation, at every point and for all contents the buffers may hold. -/
theorem body_obligation (c : Dev nD) :
    (rdat (F := F) m c).BodyObligation (defs₀ (F := F)) Variants.none () Set.univ := fun t Y _ => by
  rw [bigSep_W0, bigSep_W0]
  exact sound_body m c t Y

/-! ## The run and the frame -/

set_option backward.isDefEq.respectTransparency.types false in
/-- Every weakly fair execution of @main on the TensorCores terminates, and every final state has every array of
    the pipeline at contents it may hold after the write-backs, and every other unscoped buffer as the region found it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- An input window's array may hold at the end only what the region found in it. -/
theorem arr_in (c : Dev nD) (w : Fin cfg0.W) (hin : (cfg0.win w).isOut = false)
    (X : Buf (Elt F) ((cfg0.win w).arr.view.loc (c.tc : Thread nD τ))) (h : (rdat m c).ArrAt w cfg0.N X) :
    X = V m c (Pipeline.arrRef spec0 w) := by
  rw [RDat.ArrAt_in _ w hin] at h
  exact h.trans (A_eq m c w)

/-- THE FRAME of the word-level program, at any F: the run terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(arr_in m c 0 rfl _ ((h c).1 0)).trans (V_main_arg0 m c),
      (arr_in m c 1 rfl _ ((h c).1 1)).trans (V_main_arg1 m c),
      (arr_in m c 2 rfl _ ((h c).1 2)).trans (V_main_arg2 m c),
      (arr_in m c 3 rfl _ ((h c).1 3)).trans (V_main_arg3 m c)⟩) (run_main m ρ)

end Cert.Kernel.WordFrame

end
-- ==== Proof.KBody.lean ====
/-
  The kernel body as a transformer of its five staging buffers, for the program `KernelIdeal`.

  The body loads the data block (4 × 768 × 768), the position block (768 × 768), the scale and the shift (768
  each) whole, loads the result's buffer (a value it never uses), and stores one value — the LayerNorm payload
  of the four loaded values — over the whole result buffer. So whatever the four input buffers hold, they are
  left as they were, and the result's buffer ends at the payload of their contents.
-/
import proofs.«114825_g83047487635803_cont_sun_m_1218_21_alg».proof.Proof.Gen.KernelIdeal.Frame
import proofs.«114825_g83047487635803_cont_sun_m_1218_21_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body's accesses name. -/
abbrev rX : Rect S4x768x768 := Rect.unit (s := S4x768x768) ![0, 0, 0] S4x768x768.size inb_S4x768x768_S4x768x768_0_0_0
abbrev rP : Rect S768x768 := Rect.unit (s := S768x768) ![0, 0] S768x768.size inb_S768x768_S768x768_0_0
abbrev rV : Rect S768 := Rect.unit (s := S768) ![0] S768.size inb_S768_S768_0

/-- What the result's buffer holds after the body, from the contents of the four input buffers: its one store. -/
def out4 (x0 : Vec F S4x768x768 .f32) (x1 : Vec F S768x768 .f32) (x2 x3 : Vec F S768 .f32) : Vec F S4x768x768 .f32 :=
  View.canon [⟨rX, k0_pay1 (View.ld x0 rX) (View.ld x1 rP) (View.ld x2 rV) (View.ld x3 rV)⟩]

/-- The one store covers the buffer. -/
theorem cover4 (p0 : Vec F S4x768x768 .f32) (y : S4x768x768.Idx) :
    ∃ pc ∈ ([⟨rX, p0⟩] : List (View.Piece (Elt F) S4x768x768 .f32)), y ∈ pc.1.set :=
  View.cover_of_tiled [⟨rX, p0⟩] S4x768x768.size (by rfl) y

set_option maxHeartbeats 1000000 in
/-- The body on whole staging memrefs, the inputs' at contents `x0 … x3` and the result's at anything, runs to the
    continuation holding the inputs' as they were and the result's at `out4` of them. -/
theorem sound_kernel (c : Dev nD) (E : Set ℕ) (i : grid0.Coords)
    (arg1 : Memref sig .tc .vmem S4x768x768 .f32) (harg1 : arg1.IsWhole) (arg2 : Memref sig .tc .vmem S768x768 .f32) (harg2 : arg2.IsWhole)
    (arg3 : Memref sig .tc .vmem S768 .f32) (harg3 : arg3.IsWhole) (arg4 : Memref sig .tc .vmem S768 .f32) (harg4 : arg4.IsWhole)
    (arg5 : Memref sig .tc .vmem S4x768x768 .f32) (harg5 : arg5.IsWhole)
    (x0 : Vec F S4x768x768 .f32) (x1 : Vec F S768x768 .f32) (x2 x3 : Vec F S768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__embed_ln_kernel i arg1 harg1 arg2 harg2 arg3 harg3 arg4 harg4 arg5 harg5) K := by
  simp only [cc0__embed_ln_kernel_eq_skeleton]; unfold cc0__embed_ln_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

end Cert.KernelIdeal.Body

end
-- ==== Proof.Spec.lean ====
/-
  The mathematics of the certificate, free of both programs: LayerNorm of one row of 768 extended reals, in the
  two arrangements the programs use, and the whole-array functions built from it.

  A row `e : Fin 768 → EReal` has mean `(∑ e) / 768` and variance `(∑ (e - mean)²) / 768`. One arrangement
  multiplies the centred entry by the reciprocal square root of `var + ε`, the other divides it by the square root;
  both then scale by `g` and shift by `b`. The row of array position `(b, r)` is `x[b, r, ·] + p[r, ·]`.
-/
import Idealize.ShloMosaic.PureOps.Ideal
import Idealize.ShloMosaic.Lib.ValueIdx

noncomputable section

namespace Cert.LN

open Idealize.ShloMosaic Idealize.ShloMosaic.ValueIdx

/-- The three literal shapes. -/
abbrev SX : Shape := ⟨3, ![4, 8192, 768]⟩
abbrev SP : Shape := ⟨2, ![8192, 768]⟩
abbrev SV : Shape := ⟨1, ![768]⟩

/-- The divisor 768 and the ε both programs spell, as the extended reals their binary words denote. -/
def c768 : EReal := Ideal.ofBits .f32 0x44400000#32
def epsC : EReal := Ideal.ofBits .f32 0x2B8CBCCC#32

/-- A row's mean. -/
def mean (e : Fin 768 → EReal) : EReal := Ideal.div (∑ k, e k) c768

/-- A row's variance: the mean of the squared centred entries. -/
def var (e : Fin 768 → EReal) : EReal := Ideal.div (∑ k, (e k - mean e) * (e k - mean e)) c768

/-- The row normalised by the reciprocal square root, scaled and shifted. -/
def rowK (e g b : Fin 768 → EReal) (h : Fin 768) : EReal :=
  (e h - mean e) * Ideal.rsqrt (var e + epsC) * g h + b h

/-- The row normalised by dividing by the square root, scaled and shifted. -/
def rowR (e g b : Fin 768 → EReal) (h : Fin 768) : EReal :=
  Ideal.div (e h - mean e) (Ideal.sqrt (var e + epsC)) * g h + b h

/-- The row at array position `(b, r)`: the data row plus the position row. -/
def embRow (x : SX.Idx → EReal) (p : SP.Idx → EReal) (b : Fin 4) (r : Fin 8192) : Fin 768 → EReal :=
  fun k => x (ix3 b r k) + p (ix2 r k)

/-- A length-768 vector as a function of its one coordinate. -/
def vec (g : SV.Idx → EReal) : Fin 768 → EReal := fun k => g (ix1 k)

/-- The whole result in the reciprocal-square-root arrangement, -/
def lnK (x : SX.Idx → EReal) (p : SP.Idx → EReal) (g b : SV.Idx → EReal) : SX.Idx → EReal :=
  fun i => rowK (embRow x p (i 0) (i 1)) (vec g) (vec b) (i 2)

/-- and in the divide-by-square-root arrangement. -/
def lnR (x : SX.Idx → EReal) (p : SP.Idx → EReal) (g b : SV.Idx → EReal) : SX.Idx → EReal :=
  fun i => rowR (embRow x p (i 0) (i 1)) (vec g) (vec b) (i 2)

theorem lnK_ix3 (x : SX.Idx → EReal) (p : SP.Idx → EReal) (g b : SV.Idx → EReal) (a : Fin 4) (r : Fin 8192) (h : Fin 768) :
    lnK x p g b (ix3 a r h) = rowK (embRow x p a r) (vec g) (vec b) h := rfl

theorem lnR_ix3 (x : SX.Idx → EReal) (p : SP.Idx → EReal) (g b : SV.Idx → EReal) (a : Fin 4) (r : Fin 8192) (h : Fin 768) :
    lnR x p g b (ix3 a r h) = rowR (embRow x p a r) (vec g) (vec b) h := rfl

end Cert.LN

end
-- ==== Proof.LibKeepdims3.lean ====
/-
  Trailing-unit-axis forms of the layout operations at rank 3, read at an index, and the index a one-axis
  reduction inserts.

  A reduction along the last axis that keeps the axis (`max(axis = -1, keepdims = True)`) produces an array of shape
  `[a, b]` that is recast to `[a, b, 1]` and then repeated along the last axis to `[a, b, c]`; the way back drops the
  unit axis again. None of these steps moves a number: entry `(p, q, u)` of the recast array is entry `(p, q)` of the
  operand (row-major position `(p·b + q)·1 + 0` against `p·b + q`), and entry `(p, q, k)` of the repeated array is entry
  `(p, q, 0)`. A reduction over one axis reads, at a reduced index, the operand along that axis: reduced index
  `(p, q)` with coordinate `k` inserted last is `(p, q, k)`, and reduced index `p` with `k` inserted last is `(p, k)`.
-/
import Idealize.ShloMosaic.Lib.Pipeline.Value
import Idealize.ShloMosaic.Lib.ValueIdx
import Idealize.ShloMosaic.PureOps.Reduce

namespace Cert.Lib.Keepdims3

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array cast to `[a, b]` reads, at `(p, q)`, the operand at `(p, q, 0)`. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Reducing the last axis of `[a, b, c]`: the reduced index `(p, q)` with coordinate `k` inserted is `(p, q, k)`. -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- Reducing the last axis of `[a, b]`: the reduced index `p` with coordinate `k` inserted is `(p, k)`. -/
theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

end Cert.Lib.Keepdims3
-- ==== Proof.LibLeadUnit3.lean ====
/-
  Leading-unit-axis forms of the layout operations at rank 3, read at an index.

  A matrix `[b, c]` added to every slab of a batch `[a, b, c]` is first recast to `[1, b, c]` and then repeated
  along the leading axis; a vector `[c]` scaled into every row of every slab is recast to `[1, 1, c]` and repeated
  along the two leading axes. No step moves a number: entry `(p, q, k)` of the repeated matrix is entry `(0, q, k)`
  of the recast one, entry `(u, v, k)` of the recast vector is entry `k` of the vector (row-major position
  `(u·1 + v)·c + k` with `u = v = 0`), and entry `(p, q, k)` of the repeated vector is entry `(0, 0, k)`.
-/
import Idealize.ShloMosaic.Lib.Pipeline.Value
import Idealize.ShloMosaic.Lib.ValueIdx

namespace Cert.Lib.LeadUnit3

open Idealize.ShloMosaic Idealize.ShloMosaic.ValueIdx

variable {α : Type}

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A `[c]` array cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; omega)

/-- A `[1, 1, c]` array broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Lib.LeadUnit3
-- ==== Proof.KPay.lean ====
/-
  The kernel's payload at an index, on exact numbers.

  The body's one stored value is built from the data block `x0` (4 × 768 × 768), the position block `x1`
  (768 × 768), the scale `x2` and the shift `x3` (768 each). Entry `(a, r, h)` of it depends only on row `r`:
  with `e k = x0 (a, r, k) + x1 (r, k)` the row of embedded data, it is
  `(e h − mean e) · rsqrt (var e + ε) · x2 h + x3 h`, the row normalised by the reciprocal square root.
  The steps: the position block recast and repeated over the batch; the sum along the last axis; the sum kept
  as a unit axis, divided by 768 and repeated along the last axis; and the two vectors recast and repeated
  over the two leading axes.
-/
import proofs.«114825_g83047487635803_cont_sun_m_1218_21_alg».proof.Proof.Gen.KernelIdeal.Skeleton
import proofs.«114825_g83047487635803_cont_sun_m_1218_21_alg».proof.Proof.Spec
import proofs.«114825_g83047487635803_cont_sun_m_1218_21_alg».proof.Proof.LibKeepdims3
import proofs.«114825_g83047487635803_cont_sun_m_1218_21_alg».proof.Proof.LibLeadUnit3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx
open Cert.Lib.Keepdims3 Cert.Lib.LeadUnit3

/-- The embedded block: the data block plus the position block repeated over the batch. -/
def eB (x0 : Vec Ideal S4x768x768 .f32) (x1 : Vec Ideal S768x768 .f32) : FVec Ideal S4x768x768 .f32 :=
  addf x0 (broadcastTo S4x768x768 (shapeCast S1x768x768 x1 shapeCasts_S768x768_S1x768x768) broadcasts_S1x768x768_S4x768x768)

/-- The sum along the last axis. -/
def rsum (v : FVec Ideal S4x768x768 .f32) : FVec Ideal S4x768 .f32 :=
  multiReduction .add [2] S4x768 v 0x00000000#32 reduces_S4x768x768_S4x768 (.inl rfl) rfl

/-- A per-row quantity kept as a trailing unit axis. -/
def keep (s : FVec Ideal S4x768 .f32) : FVec Ideal S4x768x1 .f32 := shapeCast S4x768x1 s shapeCasts_S4x768_S4x768x1

/-- The per-row mean, kept as a trailing unit axis. -/
def meanB (v : FVec Ideal S4x768x768 .f32) : FVec Ideal S4x768x1 .f32 :=
  divf (keep (rsum v)) (broadcast S4x768x1 (Scalar.ofBits .f32 0x44400000#32))

/-- A per-row quantity repeated along the last axis. -/
def spread (u : FVec Ideal S4x768x1 .f32) : FVec Ideal S4x768x768 .f32 := broadcastTo S4x768x768 u broadcasts_S4x768x1_S4x768x768

/-- The centred block. -/
def cen (v : FVec Ideal S4x768x768 .f32) : FVec Ideal S4x768x768 .f32 := subf v (spread (meanB v))

/-- The per-row reciprocal square root of variance plus ε. -/
def rstd (v : FVec Ideal S4x768x768 .f32) : FVec Ideal S4x768x1 .f32 :=
  rsqrt (addf (meanB (mulf (cen v) (cen v))) (broadcast S4x768x1 (Scalar.ofBits .f32 0x2B8CBCCC#32)))

/-- A length-768 vector repeated over the two leading axes. -/
def vecB (g : Vec Ideal S768 .f32) : FVec Ideal S4x768x768 .f32 :=
  broadcastTo S4x768x768 (shapeCast S1x1x768 g shapeCasts_S768_S1x1x768) broadcasts_S1x1x768_S4x768x768

/-- The payload is the composition of those steps. -/
theorem pay_eq (x0 : Vec Ideal S4x768x768 .f32) (x1 : Vec Ideal S768x768 .f32) (x2 x3 : Vec Ideal S768 .f32) :
    k0_pay1 x0 x1 x2 x3 = addf (mulf (mulf (cen (eB x0 x1)) (spread (rstd (eB x0 x1)))) (vecB x2)) (vecB x3) := rfl

theorem eB_apply (x0 : Vec Ideal S4x768x768 .f32) (x1 : Vec Ideal S768x768 .f32) (a : Fin 4) (r k : Fin 768) :
    eB x0 x1 (ix3 a r k) = x0 (ix3 a r k) + x1 (ix2 r k) := by
  unfold eB
  rw [addf_apply]
  refine congrArg (x0 (ix3 a r k) + ·) ?_
  exact (broadcastTo_1bc_abc_apply _ broadcasts_S1x768x768_S4x768x768 a r k).trans
    (shapeCast_ab_1ab_apply x1 shapeCasts_S768x768_S1x768x768 (0 : Fin 1) r k)

theorem rsum_apply (v : FVec Ideal S4x768x768 .f32) (a : Fin 4) (r : Fin 768) :
    rsum v (ix2 a r) = ∑ k : Fin 768, v (ix3 a r k) := by
  unfold rsum
  refine (Ideal.multiReduction_add_single v 0x00000000#32 reduces_S4x768x768_S4x768 (.inl rfl) rfl (ix2 a r)).trans ?_
  refine Finset.sum_congr rfl fun k _ => ?_
  exact congrArg v (lift_last3 reduces_S4x768x768_S4x768 a r k)

theorem keep_apply (s : FVec Ideal S4x768 .f32) (a : Fin 4) (r : Fin 768) (u : Fin 1) : keep s (ix3 a r u) = s (ix2 a r) :=
  shapeCast_ab_ab1_apply s shapeCasts_S4x768_S4x768x1 a r u

theorem spread_apply (u : FVec Ideal S4x768x1 .f32) (a : Fin 4) (r k : Fin 768) : spread u (ix3 a r k) = u (ix3 a r (0 : Fin 1)) :=
  broadcastTo_ab1_abc_apply u broadcasts_S4x768x1_S4x768x768 a r k

theorem meanB_apply (v : FVec Ideal S4x768x768 .f32) (a : Fin 4) (r : Fin 768) :
    meanB v (ix3 a r (0 : Fin 1)) = Cert.LN.mean (fun k => v (ix3 a r k)) := by
  unfold meanB Cert.LN.mean Cert.LN.c768
  rw [divf_apply, broadcast_apply, keep_apply, rsum_apply]
  rfl

theorem cen_apply (v : FVec Ideal S4x768x768 .f32) (a : Fin 4) (r k : Fin 768) :
    cen v (ix3 a r k) = v (ix3 a r k) - Cert.LN.mean (fun k => v (ix3 a r k)) := by
  unfold cen
  rw [subf_apply, spread_apply, meanB_apply]

theorem rstd_apply (v : FVec Ideal S4x768x768 .f32) (a : Fin 4) (r : Fin 768) :
    rstd v (ix3 a r (0 : Fin 1)) = Ideal.rsqrt (Cert.LN.var (fun k => v (ix3 a r k)) + Cert.LN.epsC) := by
  unfold rstd
  show Ideal.rsqrt (addf (meanB (mulf (cen v) (cen v))) (broadcast S4x768x1 (Scalar.ofBits .f32 0x2B8CBCCC#32)) (ix3 a r (0 : Fin 1))) = _
  rw [addf_apply, broadcast_apply, meanB_apply]
  unfold Cert.LN.var Cert.LN.epsC
  refine congrArg (fun z => Ideal.rsqrt (Cert.LN.mean z + _)) ?_
  funext k
  rw [mulf_apply, cen_apply]

theorem vecB_apply (g : Vec Ideal S768 .f32) (a : Fin 4) (r k : Fin 768) : vecB g (ix3 a r k) = g (ix1 k) := by
  unfold vecB
  exact (broadcastTo_11c_abc_apply _ broadcasts_S1x1x768_S4x768x768 a r k).trans
    (shapeCast_c_11c_apply g shapeCasts_S768_S1x1x768 (0 : Fin 1) (0 : Fin 1) k)

/-- THE PAYLOAD AT AN INDEX: entry `(a, r, h)` is the row `x0 (a, r, ·) + x1 (r, ·)` normalised by the reciprocal
    square root, scaled by `x2 h` and shifted by `x3 h`. -/
theorem pay_apply (x0 : Vec Ideal S4x768x768 .f32) (x1 : Vec Ideal S768x768 .f32) (x2 x3 : Vec Ideal S768 .f32)
    (a : Fin 4) (r h : Fin 768) :
    k0_pay1 x0 x1 x2 x3 (ix3 a r h)
      = Cert.LN.rowK (fun k => x0 (ix3 a r k) + x1 (ix2 r k)) (fun k => x2 (ix1 k)) (fun k => x3 (ix1 k)) h := by
  rw [pay_eq, addf_apply, mulf_apply, mulf_apply, cen_apply, spread_apply, rstd_apply, vecB_apply, vecB_apply]
  unfold Cert.LN.rowK
  have he : (fun k => eB x0 x1 (ix3 a r k)) = fun k => x0 (ix3 a r k) + x1 (ix2 r k) := funext fun k => eB_apply x0 x1 a r k
  rw [he, eB_apply]

/-- Row-locality: two pairs of blocks that agree on row `r` give payloads that agree on row `r`. -/
theorem pay_congr_row (x0 x0' : Vec Ideal S4x768x768 .f32) (x1 x1' : Vec Ideal S768x768 .f32) (x2 x3 : Vec Ideal S768 .f32)
    (r : Fin 768) (h0 : ∀ a k, x0 (ix3 a r k) = x0' (ix3 a r k)) (h1 : ∀ k, x1 (ix2 r k) = x1' (ix2 r k)) (a : Fin 4) (h : Fin 768) :
    k0_pay1 x0 x1 x2 x3 (ix3 a r h) = k0_pay1 x0' x1' x2 x3 (ix3 a r h) := by
  rw [pay_apply, pay_apply]
  have he : (fun k => x0 (ix3 a r k) + x1 (ix2 r k)) = fun k => x0' (ix3 a r k) + x1' (ix2 r k) :=
    funext fun k => by rw [h0 a k, h1 k]
  rw [he]

end Cert.KernelIdeal.Pay

end
-- ==== Proof.KDat.lean ====
/-
  The idealized kernel's pipeline on exact numbers: what each staging buffer holds point by point, the body's
  obligation at every point, and the run.

  The grid has eleven points; point `t` works on rows `768·t … 768·t + 767` of the sequence axis, and the last
  block hangs over the end of the 8192-row arrays: its transfers move rows `0 … 511` of the buffers only, and the
  other rows of the two input buffers hold numbers nothing names. The body computes on all 768 rows, but each
  row of its result depends on the same row of its inputs only, so on the rows that are written back the result
  does not depend on those unnamed numbers. The proof data therefore names, for the result's buffer, the payload
  of the input blocks filled out with zeros; the obligation asks for it on the moved rows only.
-/
import proofs.«114825_g83047487635803_cont_sun_m_1218_21_alg».proof.Proof.KBody
import proofs.«114825_g83047487635803_cont_sun_m_1218_21_alg».proof.Proof.KPay

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The data block at point `t` as the fetch reads it (its rows inside the array), -/
def xblk (c : Dev nD) (t : Fin cfg0.N) : (win0_0.xblock (grid0.coords t)).Idx → Elt Ideal .f32 :=
  (win0_0.blk t).view.read (Elt Ideal) (m ((c : Thread nD τ).loc main_arg0))
/-- and the position block. -/
def pblk (c : Dev nD) (t : Fin cfg0.N) : (win0_1.xblock (grid0.coords t)).Idx → Elt Ideal .f32 :=
  (win0_1.blk t).view.read (Elt Ideal) (m ((c : Thread nD τ).loc main_arg1))

/-- The two blocks filled out to the buffers' 768 rows with zeros. -/
def xfill (c : Dev nD) (t : Fin cfg0.N) : Vec Ideal S4x768x768 .f32 :=
  win0_0.fill (grid0.coords t) (fun _ => (0 : EReal)) (xblk m c t)
def pfill (c : Dev nD) (t : Fin cfg0.N) : Vec Ideal S768x768 .f32 :=
  win0_1.fill (grid0.coords t) (fun _ => (0 : EReal)) (pblk m c t)

/-- What the result's buffer is named to hold after the body at point `t`. -/
def oblk (c : Dev nD) (t : Fin cfg0.N) : Vec Ideal S4x768x768 .f32 :=
  out4 (xfill m c t) (pfill m c t) (iblk m c 2 t) (iblk m c 3 t)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => pfill m c t
    | ⟨2, _⟩ => iblk m c 2 t
    | ⟨3, _⟩ => iblk m c 3 t
    | ⟨4, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfill m c t := by dsimp only [dats]
theorem after_1 (c : Dev nD) (t : Fin cfg0.N) : (dats m 0 c).after 1 t = pfill m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = oblk m c t := by dsimp only [dats]

/-- The result's window is never fetched. -/
theorem fetch0_4 : ∀ t : Fin cfg0.N, (cfg0.win 4).fetch t = false :=
  (by decide +kernel : ∀ t : Fin grid0.N, win0_4.fetch t = false)

/-- What the body finds: the two blocked inputs just fetched — the block on the moved rows, `d` elsewhere —, -/
theorem before_0 (c : Dev nD) (t : Fin cfg0.N) (d) :
    (dats m 0 c).before 0 t d = win0_0.fill (grid0.coords t) d (xblk m c t) := by
  unfold Dat.before; rw [if_pos (fetch0_0 t)]; rfl
theorem before_1 (c : Dev nD) (t : Fin cfg0.N) (d) :
    (dats m 0 c).before 1 t d = win0_1.fill (grid0.coords t) d (pblk m c t) := by
  unfold Dat.before; rw [if_pos (fetch0_1 t)]; rfl
/-- the scale and the shift at their whole arrays, fetched at the first point and kept, -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- and the result's buffer at contents nothing names. -/
theorem before_4 (c : Dev nD) (t : Fin cfg0.N) (d) : (dats m 0 c).before 4 t d = d := by
  unfold Dat.before
  rw [if_neg (by rw [fetch0_4 t]; exact Bool.false_ne_true)]
  split
  · rfl
  · dsimp only
    rw [if_pos (flush0_4 _)]

end Cert.KernelIdeal.Data

end
-- ==== Proof.KObl.lean ====
/-
  The idealized kernel's body obligation at every grid point, the run of the whole program, and its frame.

  At a point the two blocked inputs arrive just fetched — their block on the moved rows, unnamed numbers below —,
  the scale and the shift at their arrays, the result's buffer at anything. The body leaves the inputs as they
  were and the result's buffer at the payload of what it found. On the moved rows that payload is the payload of
  the zero-filled blocks, because a row of the payload reads the same row of the blocks only, and a moved row of
  a filled block is the block's row whatever it was filled with.
-/
import proofs.«114825_g83047487635803_cont_sun_m_1218_21_alg».proof.Proof.KDat

set_option maxRecDepth 16384

noncomputable section

namespace Cert.KernelIdeal.Data

open Cert.KernelIdeal Cert.KernelIdeal.Gen Cert.KernelIdeal.Body Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The moved parts of the three clipped windows -/

/-- At every point the three clipped windows move the same rows: all four slabs and all 768 lanes, and on the
    sequence axis the rows the result's window moves; and a buffer has 768 rows. -/
theorem xs_facts : ∀ t : Fin cfg0.N,
    win0_0.xsize (grid0.coords t) 0 = 4 ∧ win0_0.xsize (grid0.coords t) 1 = win0_4.xsize (grid0.coords t) 1
    ∧ win0_0.xsize (grid0.coords t) 2 = 768
    ∧ win0_1.xsize (grid0.coords t) 0 = win0_4.xsize (grid0.coords t) 1 ∧ win0_1.xsize (grid0.coords t) 1 = 768
    ∧ win0_4.xsize (grid0.coords t) 0 = 4 ∧ win0_4.xsize (grid0.coords t) 2 = 768
    ∧ win0_4.xsize (grid0.coords t) 1 ≤ 768 :=
  (by decide +kernel : ∀ t : Fin grid0.N,
    win0_0.xsize (grid0.coords t) 0 = 4 ∧ win0_0.xsize (grid0.coords t) 1 = win0_4.xsize (grid0.coords t) 1
    ∧ win0_0.xsize (grid0.coords t) 2 = 768
    ∧ win0_1.xsize (grid0.coords t) 0 = win0_4.xsize (grid0.coords t) 1 ∧ win0_1.xsize (grid0.coords t) 1 = 768
    ∧ win0_4.xsize (grid0.coords t) 0 = 4 ∧ win0_4.xsize (grid0.coords t) 2 = 768
    ∧ win0_4.xsize (grid0.coords t) 1 ≤ 768)

/-- A moved entry of a filled block does not depend on the filler. -/
theorem fill_indep {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The data buffer at a moved row, -/
theorem xfill_row (c : Dev nD) (t : Fin cfg0.N) (d : S4x768x768.Idx → EReal) (r : Fin 768)
    (hr : r.val < win0_4.xsize (grid0.coords t) 1) (a : Fin 4) (k : Fin 768) :
    win0_0.fill (grid0.coords t) d (xblk m c t) (ix3 a r k) = xfill m c t (ix3 a r k) := by
  unfold xfill
  refine fill_indep win0_0 _ _ _ _ _ ((win0_0.moved_iff _ _).mpr fun ax => ?_)
  obtain ⟨h0, h1, h2, -⟩ := xs_facts t
  match ax with
  | ⟨0, _⟩ => show a.val < win0_0.xsize (grid0.coords t) 0; rw [h0]; exact a.isLt
  | ⟨1, _⟩ => show r.val < win0_0.xsize (grid0.coords t) 1; rw [h1]; exact hr
  | ⟨2, _⟩ => show k.val < win0_0.xsize (grid0.coords t) 2; rw [h2]; exact k.isLt

/-- and the position buffer at a moved row, do not depend on what they were filled with. -/
theorem pfill_row (c : Dev nD) (t : Fin cfg0.N) (d : S768x768.Idx → EReal) (r : Fin 768)
    (hr : r.val < win0_4.xsize (grid0.coords t) 1) (k : Fin 768) :
    win0_1.fill (grid0.coords t) d (pblk m c t) (ix2 r k) = pfill m c t (ix2 r k) := by
  unfold pfill
  refine fill_indep win0_1 _ _ _ _ _ ((win0_1.moved_iff _ _).mpr fun ax => ?_)
  obtain ⟨-, -, -, h0, h1, -⟩ := xs_facts t
  match ax with
  | ⟨0, _⟩ => show r.val < win0_1.xsize (grid0.coords t) 0; rw [h0]; exact hr
  | ⟨1, _⟩ => show k.val < win0_1.xsize (grid0.coords t) 1; rw [h1]; exact k.isLt

/-- The one store is the whole buffer: the result's buffer ends at the payload itself. -/
theorem out4_eq (x0 : Vec Ideal S4x768x768 .f32) (x1 : Vec Ideal S768x768 .f32) (x2 x3 : Vec Ideal S768 .f32) :
    out4 x0 x1 x2 x3 = k0_pay1 x0 x1 x2 x3 := by
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a <;> rfl
  unfold out4
  rw [View.canon_unit_zero hz3]
  simp only [View.ld_unit_zero (S := S4x768x768) hz3, View.ld_unit_zero (S := S768x768) hz2, View.ld_unit_zero (S := S768) hz1]

/-- An index of the result's moved part, by coordinates. -/
theorem xinj_coords (t : Fin cfg0.N) (j : (win0_4.xblock (grid0.coords t)).Idx) :
    ∃ (a : Fin 4) (r : Fin 768) (k : Fin 768), win0_4.xinj (grid0.coords t) j = ix3 a r k ∧ r.val < win0_4.xsize (grid0.coords t) 1 := by
  obtain ⟨-, -, -, -, -, h0, h2, h1⟩ := xs_facts t
  have j0 : (j 0).val < win0_4.xsize (grid0.coords t) 0 := (j 0).isLt
  have j1 : (j 1).val < win0_4.xsize (grid0.coords t) 1 := (j 1).isLt
  have j2 : (j 2).val < win0_4.xsize (grid0.coords t) 2 := (j 2).isLt
  rw [h0] at j0; rw [h2] at j2
  refine ⟨⟨(j 0).val, j0⟩, ⟨(j 1).val, Nat.lt_of_lt_of_le j1 h1⟩, ⟨(j 2).val, j2⟩, ?_, j1⟩
  funext ax; apply Fin.ext
  match ax with
  | ⟨0, _⟩ => rfl
  | ⟨1, _⟩ => rfl
  | ⟨2, _⟩ => rfl

/-- On the moved rows, what the body leaves in the result's buffer is what the proof data names. -/
theorem cut_out4 (c : Dev nD) (t : Fin cfg0.N) (d0 : S4x768x768.Idx → EReal) (d1 : S768x768.Idx → EReal) :
    win0_4.cut (grid0.coords t) (out4 (win0_0.fill (grid0.coords t) d0 (xblk m c t)) (win0_1.fill (grid0.coords t) d1 (pblk m c t)) (iblk m c 2 t) (iblk m c 3 t))
      = win0_4.cut (grid0.coords t) (oblk m c t) := by
  funext j
  obtain ⟨a, r, k, hj, hr⟩ := xinj_coords t j
  show out4 _ _ _ _ (win0_4.xinj (grid0.coords t) j) = oblk m c t (win0_4.xinj (grid0.coords t) j)
  unfold oblk
  rw [hj, out4_eq, out4_eq]
  exact pay_congr_row _ _ _ _ _ _ r (fun a' k' => xfill_row m c t d0 r hr a' k') (fun k' => pfill_row m c t d1 r hr k') a k

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (win0_0.fill (grid0.coords t) d0 (xblk m c t))
    (win0_1.fill (grid0.coords t) d1 (pblk m c t)) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [show win0_0.cut (grid0.coords t) (xfill m c t) = xblk m c t from win0_0.cut_fill _ _ _]
    iexact H0
  isplitl [H1]
  · iexists d1
    rw [show win0_1.cut (grid0.coords t) (pfill m c t) = pblk m c t from win0_1.cut_fill _ _ _]
    iexact H1
  isplitl [H2]; · iexact H2
  isplitl [H3]; · iexact H3
  iexists _
  rw [win0_4.fill_congr_cut (grid0.coords t) (cut_out4 m c t d0 d1)]
  iexact H4

/-- The library's loose body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the program terminates without a fault, every array of the pipeline ends at
    what the proof data computes, every other buffer as it was. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the four argument arrays end as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Data

end
-- ==== Proof.KVal.lean ====
/-
  The idealized kernel's result array after the run, as one function of the argument arrays.

  Point `t` writes back rows `768·t + r` (`r` below 768, and below 512 at the last point) of every slab; what it
  writes at `(a, 768·t + r, h)` is the payload of the zero-filled blocks at `(a, r, h)`, which is the row
  `x (a, 768·t + r, ·) + p (768·t + r, ·)` normalised by the reciprocal square root, scaled by `g h` and shifted by
  `b h`: block `t` of ONE whole-array function. Every row `R` below 8192 is written by point `R / 768`, so the
  array ends at that function.
-/
import proofs.«114825_g83047487635803_cont_sun_m_1218_21_alg».proof.Proof.KObl

set_option maxRecDepth 16384

noncomputable section

namespace Cert.KernelIdeal.Data

open Cert.KernelIdeal Cert.KernelIdeal.Gen Cert.KernelIdeal.Body Cert.KernelIdeal.Pay
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps and cuts, decided over the grid: the blocked windows sit at block `t` of the sequence
    axis and block 0 of the others, the two vectors at block 0, and the rows point `t` moves are the first
    `min 768 (8192 − 768·t)`. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 3) = 0 ∧ win0_4.index t (1 : Fin 3) = t.val ∧ win0_4.index t (2 : Fin 3) = 0
    ∧ win0_4.xsize (grid0.coords t) 1 = min 768 (8192 - 768 * t.val) :=
  (by decide +kernel : ∀ t : Fin grid0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 3) = 0 ∧ win0_4.index t (1 : Fin 3) = t.val ∧ win0_4.index t (2 : Fin 3) = 0
    ∧ win0_4.xsize (grid0.coords t) 1 = min 768 (8192 - 768 * t.val))

/-- A moved entry of a filled block is the block's entry. -/
theorem fill_moved {G : Pipeline.Grid} (w : Pipeline.Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Pipeline.Window.fill; rw [dif_pos h]

/-- The zero-filled data block at a moved row is the data array at the point's row. -/
theorem xfill_at (c : Dev nD) (t : Fin cfg0.N) (a : Fin 4) (r k : Fin 768) (hr : r.val < win0_4.xsize (grid0.coords t) 1)
    (R : Fin 8192) (hR : R.val = 768 * t.val + r.val) :
    xfill m c t (ix3 a r k) = (m ((c : Thread nD τ).loc main_arg0) : S4x8192x768.Idx → EReal) (ix3 a R k) := by
  obtain ⟨h0, h1, h2, -⟩ := xs_facts t
  obtain ⟨i0, i1, i2, -⟩ := idx_facts t
  have hmv : win0_0.moved (grid0.coords t) (ix3 a r k) = true := (win0_0.moved_iff _ _).mpr fun ax => by
    match ax with
    | ⟨0, _⟩ => show a.val < win0_0.xsize (grid0.coords t) 0; rw [h0]; exact a.isLt
    | ⟨1, _⟩ => show r.val < win0_0.xsize (grid0.coords t) 1; rw [h1]; exact hr
    | ⟨2, _⟩ => show k.val < win0_0.xsize (grid0.coords t) 2; rw [h2]; exact k.isLt
  unfold xfill
  rw [fill_moved win0_0 _ _ _ _ hmv]
  unfold xblk
  show (m ((c : Thread nD τ).loc main_arg0) : S4x8192x768.Idx → EReal) ((win0_0.blk t).view.emb _) = _
  refine congrArg _ (funext fun ax => Fin.ext ?_)
  match ax with
  | ⟨0, _⟩ => show win0_0.index t (0 : Fin 3) * 4 + 1 * a.val = a.val; rw [i0]; omega
  | ⟨1, _⟩ => show win0_0.index t (1 : Fin 3) * 768 + 1 * r.val = R.val; rw [i1, hR]; omega
  | ⟨2, _⟩ => show win0_0.index t (2 : Fin 3) * 768 + 1 * k.val = k.val; rw [i2]; omega

/-- The zero-filled position block at a moved row is the position array at the point's row. -/
theorem pfill_at (c : Dev nD) (t : Fin cfg0.N) (r k : Fin 768) (hr : r.val < win0_4.xsize (grid0.coords t) 1)
    (R : Fin 8192) (hR : R.val = 768 * t.val + r.val) :
    pfill m c t (ix2 r k) = (m ((c : Thread nD τ).loc main_arg1) : S8192x768.Idx → EReal) (ix2 R k) := by
  obtain ⟨-, -, -, h0, h1, -⟩ := xs_facts t
  obtain ⟨-, -, -, i0, i1, -⟩ := idx_facts t
  have hmv : win0_1.moved (grid0.coords t) (ix2 r k) = true := (win0_1.moved_iff _ _).mpr fun ax => by
    match ax with
    | ⟨0, _⟩ => show r.val < win0_1.xsize (grid0.coords t) 0; rw [h0]; exact hr
    | ⟨1, _⟩ => show k.val < win0_1.xsize (grid0.coords t) 1; rw [h1]; exact k.isLt
  unfold pfill
  rw [fill_moved win0_1 _ _ _ _ hmv]
  unfold pblk
  show (m ((c : Thread nD τ).loc main_arg1) : S8192x768.Idx → EReal) ((win0_1.blk t).view.emb _) = _
  refine congrArg _ (funext fun ax => Fin.ext ?_)
  match ax with
  | ⟨0, _⟩ => show win0_1.index t (0 : Fin 2) * 768 + 1 * r.val = R.val; rw [i0, hR]; omega
  | ⟨1, _⟩ => show win0_1.index t (1 : Fin 2) * 768 + 1 * k.val = k.val; rw [i1]; omega

/-- The scale's and the shift's blocks are their arrays. -/
theorem gblk_at (c : Dev nD) (t : Fin cfg0.N) (k : Fin 768) :
    iblk m c 2 t (ix1 k) = (m ((c : Thread nD τ).loc main_arg2) : S768.Idx → EReal) (ix1 k) := by
  obtain ⟨-, -, -, -, -, i0, -⟩ := idx_facts t
  unfold iblk
  show (m ((c : Thread nD τ).loc main_arg2) : S768.Idx → EReal) ((win0_2.blk t).view.emb (ix1 k)) = _
  refine congrArg _ (funext fun ax => Fin.ext ?_)
  match ax with
  | ⟨0, _⟩ => show win0_2.index t (0 : Fin 1) * 768 + 1 * k.val = k.val; rw [i0]; omega

theorem bblk_at (c : Dev nD) (t : Fin cfg0.N) (k : Fin 768) :
    iblk m c 3 t (ix1 k) = (m ((c : Thread nD τ).loc main_arg3) : S768.Idx → EReal) (ix1 k) := by
  obtain ⟨-, -, -, -, -, -, i0, -⟩ := idx_facts t
  unfold iblk
  show (m ((c : Thread nD τ).loc main_arg3) : S768.Idx → EReal) ((win0_3.blk t).view.emb (ix1 k)) = _
  refine congrArg _ (funext fun ax => Fin.ext ?_)
  match ax with
  | ⟨0, _⟩ => show win0_3.index t (0 : Fin 1) * 768 + 1 * k.val = k.val; rw [i0]; omega

/-- The result as one whole-array function of the four argument arrays. -/
def Gv (c : Dev nD) : S4x8192x768.Idx → EReal :=
  Cert.LN.lnK (m ((c : Thread nD τ).loc main_arg0)) (m ((c : Thread nD τ).loc main_arg1))
    (m ((c : Thread nD τ).loc main_arg2)) (m ((c : Thread nD τ).loc main_arg3))

/-- WHAT POINT `t` WRITES BACK is block `t` of `Gv`. -/
theorem flushed_eq (c : Dev nD) (t : Fin cfg0.N) :
    (dats m 0 c).flushed 4 t = ((cfg0.win 4).blk t).view.read (Elt Ideal) (Gv m c) := by
  show (cfg0.win 4).cut (grid0.coords t) ((dats m 0 c).after 4 t) = _
  rw [after_4]
  funext j
  obtain ⟨a, r, k, hj, hr⟩ := xinj_coords t j
  have e0 : (j 0).val = a.val := congrArg (fun f : S4x768x768.Idx => (f 0).val) hj
  have e1 : (j 1).val = r.val := congrArg (fun f : S4x768x768.Idx => (f 1).val) hj
  have e2 : (j 2).val = k.val := congrArg (fun f : S4x768x768.Idx => (f 2).val) hj
  obtain ⟨-, -, -, -, -, -, -, i0, i1, i2, hx⟩ := idx_facts t
  have ht : t.val < 11 := Nat.lt_of_lt_of_eq t.isLt N_0
  have hRlt : 768 * t.val + r.val < 8192 := by rw [hx] at hr; omega
  show oblk m c t (win0_4.xinj (grid0.coords t) j) = Gv m c (((cfg0.win 4).blk t).view.emb j)
  have hemb : ((cfg0.win 4).blk t).view.emb j = ix3 a (⟨768 * t.val + r.val, hRlt⟩ : Fin 8192) k := by
    funext ax; apply Fin.ext
    match ax with
    | ⟨0, _⟩ => show win0_4.index t (0 : Fin 3) * 4 + 1 * (j 0).val = a.val; rw [i0, e0]; omega
    | ⟨1, _⟩ => show win0_4.index t (1 : Fin 3) * 768 + 1 * (j 1).val = 768 * t.val + r.val; rw [i1, e1]; omega
    | ⟨2, _⟩ => show win0_4.index t (2 : Fin 3) * 768 + 1 * (j 2).val = k.val; rw [i2, e2]; omega
  rw [hemb, hj]
  unfold oblk Gv
  rw [out4_eq, pay_apply, Cert.LN.lnK_ix3]
  unfold Cert.LN.embRow Cert.LN.vec
  have h1 : ∀ k', xfill m c t (ix3 a r k') = _ :=
    fun k' => xfill_at m c t a r k' hr (⟨768 * t.val + r.val, hRlt⟩ : Fin 8192) rfl
  have h2 : ∀ k', pfill m c t (ix2 r k') = _ :=
    fun k' => pfill_at m c t r k' hr (⟨768 * t.val + r.val, hRlt⟩ : Fin 8192) rfl
  simp only [h1, h2, gblk_at, bblk_at]

/-- An index of the array is in point `t`'s block iff each coordinate is among the rows the point moves. -/
theorem mem_blk (t : Fin cfg0.N) (i : S4x8192x768.Idx) :
    i ∈ ((cfg0.win 4).blk t).view.set ↔ ∀ a : Fin 3, win0_4.index t a * S4x768x768.size a ≤ (i a).val
      ∧ (i a).val < win0_4.index t a * S4x768x768.size a + win0_4.xsize (grid0.coords t) a := by
  show i ∈ ((View.whole main_v0).slice (win0_4.rect t)).set ↔ _
  rw [View.set_slice_whole, Rect.mem_set_unit]
  exact Iff.rfl

/-- Every index of the array is in some point's block: row `R` in point `R / 768`'s. -/
theorem cover (i : S4x8192x768.Idx) : ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 768 := (i 2).isLt
  have hN : cfg0.N = 11 := N_0
  refine ⟨⟨(i 1).val / 768, by rw [hN]; omega⟩, flush0_4 _, ?_⟩
  rw [mem_blk]
  obtain ⟨-, -, -, -, -, -, -, i0, i1, i2, hx⟩ := idx_facts ⟨(i 1).val / 768, by rw [hN]; omega⟩
  obtain ⟨-, -, -, -, -, h0, h2, -⟩ := xs_facts ⟨(i 1).val / 768, by rw [hN]; omega⟩
  intro ax
  match ax with
  | ⟨0, _⟩ =>
    show win0_4.index _ (0 : Fin 3) * 4 ≤ (i 0).val ∧ (i 0).val < win0_4.index _ (0 : Fin 3) * 4 + win0_4.xsize _ 0
    rw [i0, h0]; omega
  | ⟨1, _⟩ =>
    show win0_4.index _ (1 : Fin 3) * 768 ≤ (i 1).val ∧ (i 1).val < win0_4.index _ (1 : Fin 3) * 768 + win0_4.xsize _ 1
    rw [i1, hx]; show (i 1).val / 768 * 768 ≤ (i 1).val ∧ (i 1).val < (i 1).val / 768 * 768 + min 768 (8192 - 768 * ((i 1).val / 768)); omega
  | ⟨2, _⟩ =>
    show win0_4.index _ (2 : Fin 3) * 768 ≤ (i 2).val ∧ (i 2).val < win0_4.index _ (2 : Fin 3) * 768 + win0_4.xsize _ 2
    rw [i2, h2]; omega

/-- THE ARRAY after the run. -/
theorem final (c : Dev nD) : (dats m 0 c).arrAt 4 cfg0.N = Gv m c :=
  (dats m 0 c).arrAt_eq_of_cover 4 (Gv m c) (fun t _ => flushed_eq m c t) cover

/-- The run, read: the result array at the reciprocal-square-root LayerNorm of the argument arrays, the argument
    arrays unchanged. -/
theorem run : θ_run defs (onTc (τ := τ) (main (F := Ideal))) ⟨m, fun _ => 0, ρ⟩ fun r => ∀ c : Dev nD,
      r.2.mem ((c.tc : Thread nD τ).loc main_v0) = Cert.LN.lnK (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Data

end
-- ==== Proof.RefRun.lean ====
/-
  The reference program's @main as the list of its operations, the calls of its two outlined functions unfolded at
  their call sites, and its run: from any memory with zero counters every weakly fair execution terminates with each
  buffer at the fold of the operations' results over the launch contents.

  The call of the table lookup contributes twenty-three operations over that call's buffers (the index
  normalisation: a comparison with zero, the addition of the table's length and the selection between the two,
  which is the inner call's one operation; the in-range mask, its reduction, the gather, and the selection between
  the gathered row and the fill value); @main's own thirty-three are around it.
-/
import proofs.«114825_g83047487635803_cont_sun_m_1218_21_alg».proof.Proof.Gen.ReferenceIdeal
import Idealize.ShloMosaic.Lib.StableHlo.Run

noncomputable section

namespace Cert.LN.Ref

open Cert.ReferenceIdeal Cert.ReferenceIdeal.Gen Idealize.ShloMosaic Idealize.ShloMosaic.TcCoe Idealize.SL.Sem Idealize.ShloMosaic.StableHlo

variable {F : FTy → Type} [FloatOps F]

/-- @main's fifty-six operations in order, the two calls unfolded. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    TRef.nullary main_call0.c (constantI S_ 32 0#32),
    TRef.unary main_call0.c main_call0.v0 (broadcastInDim S4x8192 ![] bcast_S_S4x8192),
    TRef.binary (.of main_v2 : TRef sig ⟨S4x8192, .i32⟩) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2 : TRef sig ⟨S4x8192, .i32⟩) main_call0.v2 main_call0.v3 addi,
    TRef.ternary main_call0.v1 main_call0.v3 (.of main_v2 : TRef sig ⟨S4x8192, .i32⟩) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1 : TRef sig ⟨S8192x768, .f32⟩) main_call0.v5 main_call0.v13 (fun x i => Host.gather gather_S8192x768_S4x8192x1_S4x8192x768_2_0_n_n_0_2_1768 x i),
    TRef.unary main_call0.v12 main_call0.v14 (broadcastInDim S4x8192x768 ![0, 1] bcast_S4x8192_S4x8192x768_0_1),
    TRef.nullary main_call0.cst (constant S_ .f32 0x7FC00000#32),
    TRef.unary main_call0.cst main_call0.v15 (broadcastInDim S4x8192x768 ![] bcast_S_S4x8192x768),
    TRef.ternary main_call0.v14 main_call0.v13 main_call0.v15 main_call0.v16 select,
    binary main_arg0 main_v3 main_v4 (addf : (⟨S4x8192x768, .f32⟩ : BufTy).Contents (Elt F) → (⟨S4x8192x768, .f32⟩ : BufTy).Contents (Elt F) → (⟨S4x8192x768, .f32⟩ : BufTy).Contents (Elt F)),
    nullary main_cst (constant S_ .f32 0x00000000#32),
    binary main_v4 main_cst main_v5 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v5 main_v6 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44400000#32),
    unary main_cst_0 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v9 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v9 main_v10 (subf : (⟨S4x8192x768, .f32⟩ : BufTy).Contents (Elt F) → (⟨S4x8192x768, .f32⟩ : BufTy).Contents (Elt F) → (⟨S4x8192x768, .f32⟩ : BufTy).Contents (Elt F)),
    binary main_v10 main_v10 main_v11 (mulf : (⟨S4x8192x768, .f32⟩ : BufTy).Contents (Elt F) → (⟨S4x8192x768, .f32⟩ : BufTy).Contents (Elt F) → (⟨S4x8192x768, .f32⟩ : BufTy).Contents (Elt F)),
    nullary main_cst_1 (constant S_ .f32 0x00000000#32),
    binary main_v11 main_cst_1 main_v12 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v12 main_v13 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44400000#32),
    unary main_cst_2 main_v14 (broadcastInDim S4x8192x1 ![] bcast_S_S4x8192x1 : (⟨S_, .f32⟩ : BufTy).Contents (Elt F) → (⟨S4x8192x1, .f32⟩ : BufTy).Contents (Elt F)),
    binary main_v13 main_v14 main_v15 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v16 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v16 main_v17 (subf : (⟨S4x8192x768, .f32⟩ : BufTy).Contents (Elt F) → (⟨S4x8192x768, .f32⟩ : BufTy).Contents (Elt F) → (⟨S4x8192x768, .f32⟩ : BufTy).Contents (Elt F)),
    nullary main_cst_3 (constant S_ .f32 0x2B8CBCCC#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v15 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.sqrt : (⟨S4x8192x1, .f32⟩ : BufTy).Contents (Elt F) → (⟨S4x8192x1, .f32⟩ : BufTy).Contents (Elt F)),
    unary main_v20 main_v21 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v17 main_v21 main_v22 (Host.divf : (⟨S4x8192x768, .f32⟩ : BufTy).Contents (Elt F) → (⟨S4x8192x768, .f32⟩ : BufTy).Contents (Elt F) → (⟨S4x8192x768, .f32⟩ : BufTy).Contents (Elt F)),
    unary main_arg2 main_v23 (broadcastInDim S1x1x768 ![2] bcast_S768_S1x1x768_2 : (⟨S768, .f32⟩ : BufTy).Contents (Elt F) → (⟨S1x1x768, .f32⟩ : BufTy).Contents (Elt F)),
    unary main_v23 main_v24 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v22 main_v24 main_v25 (mulf : (⟨S4x8192x768, .f32⟩ : BufTy).Contents (Elt F) → (⟨S4x8192x768, .f32⟩ : BufTy).Contents (Elt F) → (⟨S4x8192x768, .f32⟩ : BufTy).Contents (Elt F)),
    unary main_arg3 main_v26 (broadcastInDim S1x1x768 ![2] bcast_S768_S1x1x768_2 : (⟨S768, .f32⟩ : BufTy).Contents (Elt F) → (⟨S1x1x768, .f32⟩ : BufTy).Contents (Elt F)),
    unary main_v26 main_v27 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v25 main_v27 main_v28 (addf : (⟨S4x8192x768, .f32⟩ : BufTy).Contents (Elt F) → (⟨S4x8192x768, .f32⟩ : BufTy).Contents (Elt F) → (⟨S4x8192x768, .f32⟩ : BufTy).Contents (Elt F)) ]

set_option maxRecDepth 4096 in
/-- @main is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- On the one device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.LN.Ref

end
-- ==== Proof.RefTerm.lean ====
/-
  The reference program's result as one function of its four arguments' contents, built in named stages: what the
  fold of its operations leaves in the result buffer (the equation is proved by computation in another module, and
  each stage is read at an index in a third).

  The position indices are 0, 1, …, 8191 along the sequence axis, the same for every batch entry. The table lookup
  first wraps a negative index by the table's length, then masks the indices outside the table, gathers the rows
  and puts a fill value where the mask is off. The rest is the row normalisation: the mean over the last axis, the
  centred entries, the mean of their squares, the square root of that plus a constant, the quotient, scale and shift.
-/
import proofs.«114825_g83047487635803_cont_sun_m_1218_21_alg».proof.Proof.Gen.ReferenceIdeal
import Idealize.ShloMosaic.PureOps.Ideal

noncomputable section

namespace Cert.LN.Ref

open Cert.ReferenceIdeal Cert.ReferenceIdeal.Gen Idealize.ShloMosaic

/-- The position indices: the iota along the sequence axis, broadcast over the batch. -/
def posIdx : IVec S4x8192 32 :=
  broadcastInDim S4x8192 ![0, 1] bcast_S1x8192_S4x8192_0_1
    (broadcastInDim S1x8192 ![1] bcast_S8192_S1x8192_1 (iotaInDim S8192 32 0))

/-- An index array with its negative entries wrapped by the table's length. -/
def normIdx (i : IVec S4x8192 32) : IVec S4x8192 32 :=
  select (cmpi .slt i (broadcastInDim S4x8192 ![] bcast_S_S4x8192 (constantI S_ 32 0#32)))
    (addi i (broadcastInDim S4x8192 ![] bcast_S_S4x8192 (constantI S_ 32 8192#32))) i

/-- The wrapped indices as the gather's start indices: a trailing unit axis added. -/
def startIdx (i : IVec S4x8192 32) : IVec S4x8192x1 32 :=
  broadcastInDim S4x8192x1 ![0, 1] bcast_S4x8192_S4x8192x1_0_1 (normIdx i)

/-- The mask of the start indices inside the table: `0 ≤ i` and `i ≤ 8191`, reduced with "and" over the unit axis. -/
def inRange (i : IVec S4x8192 32) : IVec S4x8192 1 :=
  Host.reduce IntOp.andi
    (andi (cmpi .sge (startIdx i) (broadcastInDim S4x8192x1 ![] bcast_S_S4x8192x1 (constantI S_ 32 0#32)))
      (cmpi .sle (startIdx i)
        (broadcastInDim S4x8192x1 ![0, 1, 2] bcast_S1x1x1_S4x8192x1_0_1_2
          (broadcastInDim S1x1x1 ![2] bcast_S1_S1x1x1_2 (constantI S1 32 8191#32)))))
    (constantI S_ 1 1#1) reducesTo_S4x8192x1_S4x8192_d2 h_S_

/-- The table lookup: the gathered rows where the mask is on, the fill value elsewhere. -/
def take (p : FVec Ideal S8192x768 .f32) (i : IVec S4x8192 32) : FVec Ideal S4x8192x768 .f32 :=
  select (broadcastInDim S4x8192x768 ![0, 1] bcast_S4x8192_S4x8192x768_0_1 (inRange i))
    (Host.gather gather_S8192x768_S4x8192x1_S4x8192x768_2_0_n_n_0_2_1768 p (startIdx i))
    (broadcastInDim S4x8192x768 ![] bcast_S_S4x8192x768 (constant (F := Ideal) S_ .f32 0x7FC00000#32))

/-- The data plus the looked-up position rows. -/
def emb (x : FVec Ideal S4x8192x768 .f32) (p : FVec Ideal S8192x768 .f32) : FVec Ideal S4x8192x768 .f32 :=
  addf x (take p posIdx)

/-- The mean over the last axis, kept as a unit axis: the sum divided by 768. -/
def meanA (e : FVec Ideal S4x8192x768 .f32) : FVec Ideal S4x8192x1 .f32 :=
  Host.divf
    (broadcastInDim S4x8192x1 ![0, 1] bcast_S4x8192_S4x8192x1_0_1
      (Host.reduceAdd e (constant (F := Ideal) S_ .f32 0x00000000#32) reducesTo_S4x8192x768_S4x8192_d2 h_S_))
    (broadcastInDim S4x8192x1 ![] bcast_S_S4x8192x1 (constant (F := Ideal) S_ .f32 0x44400000#32))

/-- The centred entries. -/
def cen (e : FVec Ideal S4x8192x768 .f32) : FVec Ideal S4x8192x768 .f32 :=
  subf e (broadcastInDim S4x8192x768 ![0, 1, 2] bcast_S4x8192x1_S4x8192x768_0_1_2 (meanA e))

/-- The variance over the last axis, kept as a unit axis: the sum of the squared centred entries divided by 768. -/
def varA (e : FVec Ideal S4x8192x768 .f32) : FVec Ideal S4x8192x1 .f32 :=
  Host.divf
    (broadcastInDim S4x8192x1 ![0, 1] bcast_S4x8192_S4x8192x1_0_1
      (Host.reduceAdd (mulf (cen e) (cen e)) (constant (F := Ideal) S_ .f32 0x00000000#32)
        reducesTo_S4x8192x768_S4x8192_d2 h_S_))
    (broadcastInDim S4x8192x1 ![] bcast_S_S4x8192x1 (constant (F := Ideal) S_ .f32 0x44400000#32))

/-- The square root of the variance plus the small constant. -/
def sdA (e : FVec Ideal S4x8192x768 .f32) : FVec Ideal S4x8192x1 .f32 :=
  Host.sqrt (addf (varA e) (broadcastInDim S4x8192x1 ![] bcast_S_S4x8192x1 (constant (F := Ideal) S_ .f32 0x2B8CBCCC#32)))

/-- The normalised rows, scaled by `g` and shifted by `b` along the last axis. -/
def norm (e : FVec Ideal S4x8192x768 .f32) (g b : FVec Ideal S768 .f32) : FVec Ideal S4x8192x768 .f32 :=
  addf
    (mulf (Host.divf (cen e) (broadcastInDim S4x8192x768 ![0, 1, 2] bcast_S4x8192x1_S4x8192x768_0_1_2 (sdA e)))
      (broadcastInDim S4x8192x768 ![0, 1, 2] bcast_S1x1x768_S4x8192x768_0_1_2
        (broadcastInDim S1x1x768 ![2] bcast_S768_S1x1x768_2 g)))
    (broadcastInDim S4x8192x768 ![0, 1, 2] bcast_S1x1x768_S4x8192x768_0_1_2
      (broadcastInDim S1x1x768 ![2] bcast_S768_S1x1x768_2 b))

/-- The whole result. -/
def out (x : FVec Ideal S4x8192x768 .f32) (p : FVec Ideal S8192x768 .f32) (g b : FVec Ideal S768 .f32) :
    FVec Ideal S4x8192x768 .f32 :=
  norm (emb x p) g b

end Cert.LN.Ref

end
-- ==== Proof.RefAfter.lean ====
/-
  What the fold of the reference's operations leaves in the result buffer and in the four argument buffers: the
  result is the staged term `out` of the four arguments' contents, the arguments are unchanged. Each equation is
  a computation: the fold unrolled, each operation's result read at its own buffer as its function's value and at
  any other buffer as what was there; what remains is the staged definitions unfolded.
-/
import proofs.«114825_g83047487635803_cont_sun_m_1218_21_alg».proof.Proof.RefRun
import proofs.«114825_g83047487635803_cont_sun_m_1218_21_alg».proof.Proof.RefTerm

noncomputable section

namespace Cert.LN.Ref

open Cert.ReferenceIdeal Cert.ReferenceIdeal.Gen Idealize.ShloMosaic Idealize.ShloMosaic.TcCoe Idealize.SL.Sem Idealize.ShloMosaic.StableHlo

attribute [local irreducible] Host.reduce Host.gather Host.reduceAdd in
set_option maxRecDepth 16384 in
set_option maxHeartbeats 1600000 in
/-- The result buffer after the operations holds `out` of the four arguments' contents. -/
theorem after_out (V : Valuation τ sig (Elt Ideal)) :
    after (ops (F := Ideal)) V (main_v28 : DevRef τ sig)
      = out (V (main_arg0 : DevRef τ sig)) (V (main_arg1 : DevRef τ sig)) (V (main_arg2 : DevRef τ sig))
          (V (main_arg3 : DevRef τ sig)) := by
  after_results_simp
  rfl

set_option maxRecDepth 16384 in
theorem after_arg0 (V : Valuation τ sig (Elt Ideal)) :
    after (ops (F := Ideal)) V (main_arg0 : DevRef τ sig) = V (main_arg0 : DevRef τ sig) := by
  after_results_simp

set_option maxRecDepth 16384 in
theorem after_arg1 (V : Valuation τ sig (Elt Ideal)) :
    after (ops (F := Ideal)) V (main_arg1 : DevRef τ sig) = V (main_arg1 : DevRef τ sig) := by
  after_results_simp

set_option maxRecDepth 16384 in
theorem after_arg2 (V : Valuation τ sig (Elt Ideal)) :
    after (ops (F := Ideal)) V (main_arg2 : DevRef τ sig) = V (main_arg2 : DevRef τ sig) := by
  after_results_simp

set_option maxRecDepth 16384 in
theorem after_arg3 (V : Valuation τ sig (Elt Ideal)) :
    after (ops (F := Ideal)) V (main_arg3 : DevRef τ sig) = V (main_arg3 : DevRef τ sig) := by
  after_results_simp

end Cert.LN.Ref

end
-- ==== Proof.LibWords32.lean ====
/-
  Signed comparisons and the signed reading of 32-bit words that are small natural numbers: a word `BitVec.ofNat 32 n`
  with `n < 2³¹` reads as the integer `n`, is not negative, and compares with another such word as the numbers do.
-/
import Idealize.ShloMosaic.PureOps

namespace Cert.Words32

open Idealize.ShloMosaic

/-- A word below 2³¹ reads, signed, as its number. -/
theorem toInt_ofNat (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e]
  split
  · rfl
  · omega

/-- … so its signed reading as a natural number is the number. -/
theorem toInt_toNat_ofNat (n : Nat) (h : n < 2147483648) : (BitVec.ofNat 32 n).toInt.toNat = n := by
  rw [toInt_ofNat n h]; rfl

/-- A word below 2³¹ is not negative: "less than zero" is off, -/
theorem cmpi_slt_zero (n : Nat) (h : n < 2147483648) : IntOp.cmpi .slt (BitVec.ofNat 32 n) 0#32 = 0#1 := by
  have e : (BitVec.ofNat 32 n).slt 0#32 = false := by
    simp only [BitVec.slt, toInt_ofNat n h, BitVec.toInt_zero]
    exact decide_eq_false (by omega)
  simp only [IntOp.cmpi, e]; rfl

/-- "at least zero" is on, -/
theorem cmpi_sge_zero (n : Nat) (h : n < 2147483648) : IntOp.cmpi .sge (BitVec.ofNat 32 n) 0#32 = 1#1 := by
  have e : (0#32).sle (BitVec.ofNat 32 n) = true := by
    simp only [BitVec.sle, toInt_ofNat n h, BitVec.toInt_zero]
    exact decide_eq_true (by omega)
  simp only [IntOp.cmpi, e]; rfl

/-- and "at most `m`" is on for a number that is at most `m`. -/
theorem cmpi_sle_ofNat (n m : Nat) (hm : m < 2147483648) (h : n ≤ m) :
    IntOp.cmpi .sle (BitVec.ofNat 32 n) (BitVec.ofNat 32 m) = 1#1 := by
  have e : (BitVec.ofNat 32 n).sle (BitVec.ofNat 32 m) = true := by
    simp only [BitVec.sle, toInt_ofNat n (by omega), toInt_ofNat m hm]
    exact decide_eq_true (by omega)
  simp only [IntOp.cmpi, e]; rfl

/-- A left fold of "and" from the bit 1 over a list whose every element gives the bit 1 is the bit 1. -/
theorem foldl_andi_one {ι : Type} (g : ι → BitVec 1) :
    ∀ l : List ι, (∀ n ∈ l, g n = 1#1) → l.foldl (fun r n => IntOp.andi r (g n)) 1#1 = 1#1
  | [], _ => rfl
  | a :: l, h => by
    rw [List.foldl_cons, h a List.mem_cons_self]
    exact foldl_andi_one g l fun n hn => h n (List.mem_cons_of_mem _ hn)

end Cert.Words32
-- ==== Proof.RefRead.lean ====
/-
  The reference's result, read index by index, is the specification's `lnR`.

  The index side. The position indices are the numbers 0 … 8191 as 32-bit words, all below 2³¹: none is negative, so
  the wrap by the table's length leaves each; each is at least 0 and at most 8191, so the in-range mask is on at every
  start index and its reduction with "and" over the unit axis is on everywhere; the gather then reads, at
  `(a, r, h)`, the table's row at the start index read signed and clamped into the table, which is row `r`, at
  column `h`; and the selection keeps the gathered value. So the looked-up array at `(a, r, h)` is `p (r, h)`, and
  the embedded array's row at `(a, r)` is `embRow x p a r`.

  The value side, for any array `e` whose row at `(a, r)` is `ρ`. The host's sum over the last axis from the zero
  initial value is `∑ k, ρ k`; divided by the constant 768 it is `mean ρ`; the centred entry is `ρ h - mean ρ`; the
  sum of the squared centred entries divided by 768 is `var ρ`; the square root of that plus the small constant, the
  quotient, the scale and the shift are `rowR ρ g b h`.
-/
import proofs.«114825_g83047487635803_cont_sun_m_1218_21_alg».proof.Proof.RefTerm
import proofs.«114825_g83047487635803_cont_sun_m_1218_21_alg».proof.Proof.Spec
import proofs.«114825_g83047487635803_cont_sun_m_1218_21_alg».proof.Proof.LibWords32
import Idealize.ShloMosaic.Lib.IdealHost
import Idealize.ShloMosaic.Lib.Pipeline.Value

noncomputable section

namespace Cert.LN.Ref

open Cert.ReferenceIdeal Cert.ReferenceIdeal.Gen Idealize.ShloMosaic Idealize.ShloMosaic.ValueIdx

/-! ## The gather read at an index -/

/-- The gather of rows of a two-axis table at start indices with a trailing unit axis, read at an index: the table's
    row at the start index (read signed, clamped into the table), at the same column. -/
theorem gather_row_apply {α : Type} (p : S8192x768.Idx → α) (idx : IVec S4x8192x1 32) (a : Fin 4) (r : Fin 8192) (h : Fin 768) :
    Host.gather gather_S8192x768_S4x8192x1_S4x8192x768_2_0_n_n_0_2_1768 p idx (ix3 a r h)
      = p (ix2 (⟨min (idx (ix3 a r (0 : Fin 1))).toInt.toNat 8191, by omega⟩ : Fin 8192) h) := by
  unfold Host.gather
  refine congrArg p (funext fun c => Fin.ext ?_)
  match c with
  | ⟨0, _⟩ =>
    show gather_S8192x768_S4x8192x1_S4x8192x768_2_0_n_n_0_2_1768.start (ix3 a r h) idx 0 + gather_S8192x768_S4x8192x1_S4x8192x768_2_0_n_n_0_2_1768.batchCoord (ix3 a r h) 0 + gather_S8192x768_S4x8192x1_S4x8192x768_2_0_n_n_0_2_1768.offCoord (ix3 a r h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S8192x768_S4x8192x1_S4x8192x768_2_0_n_n_0_2_1768.startIndexMap from List.mem_singleton.mpr rfl)]
    have hsi : gather_S8192x768_S4x8192x1_S4x8192x768_2_0_n_n_0_2_1768.siIdx (ix3 a r h)
        ⟨List.idxOf (0 : Fin 2) gather_S8192x768_S4x8192x1_S4x8192x768_2_0_n_n_0_2_1768.startIndexMap,
          List.idxOf_lt_length_iff.2 (List.mem_singleton.mpr rfl)⟩ = ix3 a r (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S8192x768_S4x8192x1_S4x8192x768_2_0_n_n_0_2_1768.start (ix3 a r h) idx 1 + gather_S8192x768_S4x8192x1_S4x8192x768_2_0_n_n_0_2_1768.batchCoord (ix3 a r h) 1 + gather_S8192x768_S4x8192x1_S4x8192x768_2_0_n_n_0_2_1768.offCoord (ix3 a r h) 1 = h.val
    have h1 : (1 : Fin 2) ∉ gather_S8192x768_S4x8192x1_S4x8192x768_2_0_n_n_0_2_1768.startIndexMap :=
      fun hm => absurd (List.mem_singleton.mp hm) (by decide)
    have h2 : (1 : Fin 2) ∈ gather_S8192x768_S4x8192x1_S4x8192x768_2_0_n_n_0_2_1768.sKept :=
      (GatherDims.mem_sKept _ _).mpr ⟨fun hm => absurd (List.mem_singleton.mp hm) (by decide), List.not_mem_nil⟩
    rw [GatherDims.batchCoord_eq_zero _ _ _ List.not_mem_nil]
    unfold GatherDims.start GatherDims.offCoord
    rw [dif_neg h1, dif_pos h2]
    simp only [Nat.zero_add, Nat.add_zero]
    rfl

/-! ## The index side -/

/-- The position index at batch entry `a`, position `r`, is `r` as a word. -/
theorem posIdx_apply (a : Fin 4) (r : Fin 8192) : posIdx (ix2 a r) = BitVec.ofNat 32 r.val := rfl

/-- It is not negative, so the wrap leaves it. -/
theorem normIdx_posIdx_apply (a : Fin 4) (r : Fin 8192) : normIdx posIdx (ix2 a r) = BitVec.ofNat 32 r.val := by
  have hr := r.isLt
  show Scalar.select (IntOp.cmpi .slt (posIdx (ix2 a r)) 0#32) (IntOp.addi (posIdx (ix2 a r)) 8192#32) (posIdx (ix2 a r)) = _
  rw [posIdx_apply, Cert.Words32.cmpi_slt_zero _ (by omega), select_zero]

/-- The start index at `(a, r, 0)` is the wrapped index at `(a, r)`. -/
theorem startIdx_apply (i : IVec S4x8192 32) (a : Fin 4) (r : Fin 8192) (z : Fin 1) :
    startIdx i (ix3 a r z) = normIdx i (ix2 a r) :=
  broadcastInDim_apply _ _ _ (ix3 a r z) (ix2 a r) fun b => match b with | ⟨0, _⟩ => rfl | ⟨1, _⟩ => rfl

/-- Every start index is inside the table: both comparisons are on. -/
theorem mask_apply (a : Fin 4) (r : Fin 8192) (z : Fin 1) :
    andi (cmpi .sge (startIdx posIdx) (broadcastInDim S4x8192x1 ![] bcast_S_S4x8192x1 (constantI S_ 32 0#32)))
      (cmpi .sle (startIdx posIdx)
        (broadcastInDim S4x8192x1 ![0, 1, 2] bcast_S1x1x1_S4x8192x1_0_1_2
          (broadcastInDim S1x1x1 ![2] bcast_S1_S1x1x1_2 (constantI S1 32 8191#32)))) (ix3 a r z) = 1#1 := by
  have hr := r.isLt
  show IntOp.andi (IntOp.cmpi .sge (startIdx posIdx (ix3 a r z)) 0#32)
    (IntOp.cmpi .sle (startIdx posIdx (ix3 a r z)) (BitVec.ofNat 32 8191)) = 1#1
  rw [startIdx_apply, normIdx_posIdx_apply, Cert.Words32.cmpi_sge_zero _ (by omega),
    Cert.Words32.cmpi_sle_ofNat _ _ (by omega) (by omega)]
  rfl

/-- So the reduced mask is on everywhere. -/
theorem inRange_posIdx_apply (j : S4x8192.Idx) : inRange posIdx j = 1#1 := by
  unfold inRange Host.reduce
  refine Cert.Words32.foldl_andi_one _ _ fun n _ => ?_
  exact (congrArg _ (eq_ix3 (n0 := 4) (n1 := 8192) (n2 := 1) (S4x8192x1.rowMajor.symm n))).trans (mask_apply _ _ _)

/-! ## The broadcasts of this program, read at an index -/

section Broadcasts
variable {α : Type}

/-- An array over `(a, r)` broadcast along a new last axis of 768 reads `(a, r)`. -/
theorem bc_ar_arh (v : S4x8192.Idx → α) (a : Fin 4) (r : Fin 8192) (h : Fin 768) :
    broadcastInDim S4x8192x768 ![0, 1] bcast_S4x8192_S4x8192x768_0_1 v (ix3 a r h) = v (ix2 a r) :=
  broadcastInDim_apply _ _ _ (ix3 a r h) (ix2 a r) fun b => match b with | ⟨0, _⟩ => rfl | ⟨1, _⟩ => rfl

/-- An array over `(a, r)` given a trailing unit axis reads `(a, r)`. -/
theorem bc_ar_ar1 (v : S4x8192.Idx → α) (a : Fin 4) (r : Fin 8192) (z : Fin 1) :
    broadcastInDim S4x8192x1 ![0, 1] bcast_S4x8192_S4x8192x1_0_1 v (ix3 a r z) = v (ix2 a r) :=
  broadcastInDim_apply _ _ _ (ix3 a r z) (ix2 a r) fun b => match b with | ⟨0, _⟩ => rfl | ⟨1, _⟩ => rfl

/-- An array with a trailing unit axis broadcast along it to 768 reads `(a, r, 0)`. -/
theorem bc_ar1_arh (v : S4x8192x1.Idx → α) (a : Fin 4) (r : Fin 8192) (h : Fin 768) :
    broadcastInDim S4x8192x768 ![0, 1, 2] bcast_S4x8192x1_S4x8192x768_0_1_2 v (ix3 a r h) = v (ix3 a r (0 : Fin 1)) :=
  broadcastInDim_apply _ _ _ (ix3 a r h) (ix3 a r (0 : Fin 1))
    fun b => match b with | ⟨0, _⟩ => rfl | ⟨1, _⟩ => rfl | ⟨2, _⟩ => rfl

/-- A vector of 768 given two leading unit axes and broadcast over `(a, r)` reads its entry `h`. -/
theorem bc_h_arh (v : S768.Idx → α) (a : Fin 4) (r : Fin 8192) (h : Fin 768) :
    broadcastInDim S4x8192x768 ![0, 1, 2] bcast_S1x1x768_S4x8192x768_0_1_2
      (broadcastInDim S1x1x768 ![2] bcast_S768_S1x1x768_2 v) (ix3 a r h) = v (ix1 h) :=
  (broadcastInDim_apply _ _ _ (ix3 a r h) (ix3 (0 : Fin 1) (0 : Fin 1) h)
    fun b => match b with | ⟨0, _⟩ => rfl | ⟨1, _⟩ => rfl | ⟨2, _⟩ => rfl).trans
  (broadcastInDim_apply _ _ _ (ix3 (0 : Fin 1) (0 : Fin 1) h) (ix1 h) fun b => match b with | ⟨0, _⟩ => rfl)

end Broadcasts

/-- The host's square root at an index is the square root of the element. -/
theorem hostSqrt_apply {s : Shape} {φ : FTy} (v : FVec Ideal s φ) (i : s.Idx) : Host.sqrt v i = Ideal.sqrt (v i) := rfl

/-! ## The looked-up rows -/

/-- The gather at a start index that is the word of a number inside the table reads that row. -/
theorem gather_row_apply' {α : Type} (p : S8192x768.Idx → α) (idx : IVec S4x8192x1 32) (a : Fin 4) (r : Fin 8192) (h : Fin 768)
    (k : Fin 8192) (hk : (idx (ix3 a r (0 : Fin 1))).toInt.toNat = k.val) :
    Host.gather gather_S8192x768_S4x8192x1_S4x8192x768_2_0_n_n_0_2_1768 p idx (ix3 a r h) = p (ix2 k h) := by
  rw [gather_row_apply]
  refine congrArg p (congrArg (fun q : Fin 8192 => ix2 q h) (Fin.ext ?_))
  show min (idx (ix3 a r (0 : Fin 1))).toInt.toNat 8191 = k.val
  have := k.isLt
  rw [hk]; omega

/-- The looked-up row at `(a, r, h)` is the table's row `r` at column `h`. -/
theorem take_posIdx_apply (p : FVec Ideal S8192x768 .f32) (a : Fin 4) (r : Fin 8192) (h : Fin 768) :
    take p posIdx (ix3 a r h) = p (ix2 r h) := by
  have hr := r.isLt
  rw [take, select_apply, bc_ar_arh, inRange_posIdx_apply, select_one]
  refine gather_row_apply' p _ a r h r ?_
  rw [startIdx_apply, normIdx_posIdx_apply, Cert.Words32.toInt_toNat_ofNat _ (by omega)]

/-- The data plus the looked-up rows, at `(a, r, ·)`, is the row `embRow x p a r`. -/
theorem emb_apply (x : FVec Ideal S4x8192x768 .f32) (p : FVec Ideal S8192x768 .f32) (a : Fin 4) (r : Fin 8192) (k : Fin 768) :
    emb x p (ix3 a r k) = embRow x p a r k := by
  rw [emb, addf_apply, take_posIdx_apply]
  rfl

/-! ## The row statistics -/

section Row
variable (e : FVec Ideal S4x8192x768 .f32) (a : Fin 4) (r : Fin 8192) (ρ : Fin 768 → EReal)

/-- The host's sum over the last axis at `(a, r)`, from the zero initial value, is the sum of the row. -/
theorem rowSum_apply (he : ∀ k, e (ix3 a r k) = ρ k) :
    Host.reduceAdd e (constant (F := Ideal) S_ .f32 0x00000000#32) reducesTo_S4x8192x768_S4x8192_d2 h_S_ (ix2 a r)
      = ∑ k : Fin 768, ρ k := by
  rw [hostReduceAdd_apply]
  refine (Ideal.hostReduceAdd_single reducesTo_S4x8192x768_S4x8192_d2 (by decide : S4x8192x768.Reduces [2] S4x8192) e _ (ix2 a r)).trans ?_
  rw [constant_apply, Ideal.ofBits_zero_f32, zero_add]
  refine Finset.sum_congr rfl fun k _ => ?_
  refine (congrArg e ?_).trans (he k)
  funext c
  match c with
  | ⟨0, _⟩ => rfl
  | ⟨1, _⟩ => rfl
  | ⟨2, _⟩ => rfl

/-- The mean at `(a, r, 0)` is the row's mean. -/
theorem meanA_apply (he : ∀ k, e (ix3 a r k) = ρ k) (z : Fin 1) : meanA e (ix3 a r z) = mean ρ := by
  rw [meanA, hostDivf_apply, bc_ar_ar1, rowSum_apply e a r ρ he, broadcastInDim_scalar_apply, constant_apply]
  rfl

/-- The centred entry at `(a, r, h)`. -/
theorem cen_apply (he : ∀ k, e (ix3 a r k) = ρ k) (h : Fin 768) : cen e (ix3 a r h) = ρ h - mean ρ := by
  rw [cen, subf_apply, bc_ar1_arh, meanA_apply e a r ρ he, he]

/-- The variance at `(a, r, 0)` is the row's variance. -/
theorem varA_apply (he : ∀ k, e (ix3 a r k) = ρ k) (z : Fin 1) : varA e (ix3 a r z) = var ρ := by
  rw [varA, hostDivf_apply, bc_ar_ar1,
    rowSum_apply (mulf (cen e) (cen e)) a r (fun k => (ρ k - mean ρ) * (ρ k - mean ρ))
      (fun k => by rw [mulf_apply, cen_apply e a r ρ he]),
    broadcastInDim_scalar_apply, constant_apply]
  rfl

/-- The square root at `(a, r, 0)`. -/
theorem sdA_apply (he : ∀ k, e (ix3 a r k) = ρ k) (z : Fin 1) : sdA e (ix3 a r z) = Ideal.sqrt (var ρ + epsC) := by
  rw [sdA, hostSqrt_apply, addf_apply, varA_apply e a r ρ he, broadcastInDim_scalar_apply, constant_apply]
  rfl

/-- The normalised, scaled and shifted entry at `(a, r, h)` is the row function `rowR`. -/
theorem norm_apply (he : ∀ k, e (ix3 a r k) = ρ k) (g b : FVec Ideal S768 .f32) (h : Fin 768) :
    norm e g b (ix3 a r h) = rowR ρ (vec g) (vec b) h := by
  rw [norm, addf_apply, mulf_apply, hostDivf_apply, cen_apply e a r ρ he, bc_ar1_arh, sdA_apply e a r ρ he,
    bc_h_arh, bc_h_arh]
  rfl

end Row

/-! ## The whole result -/

/-- The reference's result at `(a, r, h)`. -/
theorem out_apply (x : FVec Ideal S4x8192x768 .f32) (p : FVec Ideal S8192x768 .f32) (g b : FVec Ideal S768 .f32)
    (a : Fin 4) (r : Fin 8192) (h : Fin 768) :
    out x p g b (ix3 a r h) = rowR (embRow x p a r) (vec g) (vec b) h :=
  norm_apply (emb x p) a r (embRow x p a r) (emb_apply x p a r) g b h

/-- The reference's result is the specification's `lnR`. -/
theorem out_eq_lnR (x : FVec Ideal S4x8192x768 .f32) (p : FVec Ideal S8192x768 .f32) (g b : FVec Ideal S768 .f32) :
    out x p g b = lnR x p g b := by
  funext i
  rw [eq_ix3 (n0 := 4) (n1 := 8192) (n2 := 768) i]
  exact out_apply x p g b _ _ _

end Cert.LN.Ref
end
-- ==== Proof.RefValue.lean ====
/-
  The reference program's run with its result read as the specification: from any memory with zero counters every
  weakly fair execution of @main terminates, the result buffer then holds `lnR` of the four arguments' launch
  contents, and the four argument buffers hold what they held. Assembled from the run (each buffer ends at the fold
  of the operations), the fold at the result buffer (the staged term `out`), and `out = lnR`.
-/
import proofs.«114825_g83047487635803_cont_sun_m_1218_21_alg».proof.Proof.RefAfter
import proofs.«114825_g83047487635803_cont_sun_m_1218_21_alg».proof.Proof.RefRead

noncomputable section

namespace Cert.LN.Ref

open Cert.ReferenceIdeal Cert.ReferenceIdeal.Gen Idealize.ShloMosaic Idealize.ShloMosaic.TcCoe Idealize.SL.Sem Idealize.ShloMosaic.StableHlo

/-- On the one device, at the ideal values, from any memory with zero counters: every weakly fair execution of @main
    terminates with the result buffer at `lnR` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28)
        = Cert.LN.lnR (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v28).trans ((after_out (launchContents m c)).trans (out_eq_lnR _ _ _ _)),
        (h c main_arg0).trans (after_arg0 (launchContents m c)),
        (h c main_arg1).trans (after_arg1 (launchContents m c)),
        (h c main_arg2).trans (after_arg2 (launchContents m c)),
        (h c main_arg3).trans (after_arg3 (launchContents m c))⟩)
    (run_main m ρ)

end Cert.LN.Ref

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.Algebra.lean ====
/-
  The two arrangements of LayerNorm agree on rows of real numbers.

  For a row of reals the mean is a real, every centred entry is a real, and the variance is a real that is at
  least zero, so the variance plus the positive constant ε is a positive real w. At a positive real w the
  reciprocal square root is the real (√w)⁻¹ and the square root is the real √w ≠ 0; dividing by a nonzero real is
  multiplying by its reciprocal, for every extended-real numerator. So multiplying the centred entry by the
  reciprocal square root and dividing it by the square root are the same product, and the scale and the shift
  that follow are applied to equal quantities.
-/
import proofs.«114825_g83047487635803_cont_sun_m_1218_21_alg».proof.Proof.Spec
import proofs.«114825_g83047487635803_cont_sun_m_1218_21_alg».proof.Proof.LibRealValued

noncomputable section

namespace Cert.LN

open Idealize.ShloMosaic Idealize.ShloMosaic.ValueIdx Cert.RealValued

/-- The divisor's binary word denotes the real 768: (2²³ + 2²²) · 2^(136 - 127 - 23). -/
theorem c768_eq : c768 = ((768 : ℝ) : EReal) := by
  unfold c768
  simp [Ideal.ofBits, Ideal.ieee, -EReal.coe_mul]; norm_num

/-- The word of ε denotes a positive real: a normal number with a clear sign bit. -/
theorem epsC_pos : ∃ ε : ℝ, 0 < ε ∧ epsC = (ε : EReal) := by
  refine ⟨9223372 * (2 : ℝ) ^ (-63 : Int), by positivity, ?_⟩
  unfold epsC
  simp [Ideal.ofBits, Ideal.ieee, -EReal.coe_mul]

/-- At a positive real, multiplying by the reciprocal square root is dividing by the square root. -/
theorem mul_rsqrt_eq_div_sqrt (c : EReal) {w : EReal} (hw : IsPos w) :
    c * Ideal.rsqrt w = Ideal.div c (Ideal.sqrt w) := by
  obtain ⟨r, hr, rfl⟩ := hw
  have hs : Real.sqrt r ≠ 0 := (Real.sqrt_pos.mpr hr).ne'
  rw [Ideal.rsqrt_coe, if_neg (not_lt.mpr hr.le), if_neg hr.ne', Ideal.sqrt_coe, if_neg (not_lt.mpr hr.le),
    Ideal.div_coe hs, one_div]

/-- The variance of a row of reals plus ε is a positive real. -/
theorem var_add_eps_pos (e : Fin 768 → EReal) (he : ∀ k, IsReal (e k)) : IsPos (var e + epsC) := by
  choose r hr using he
  obtain ⟨ε, hε, hεq⟩ := epsC_pos
  have h768 : (768 : ℝ) ≠ 0 := by norm_num
  have hm : mean e = (((∑ k, r k) * (1 / 768) : ℝ) : EReal) := by
    unfold mean
    rw [c768_eq, Ideal.div_coe h768, EReal.coe_mul, coe_sum]
    congr 1; exact Finset.sum_congr rfl fun k _ => hr k
  have hc : ∀ k, e k - mean e = ((r k - (∑ k, r k) * (1 / 768) : ℝ) : EReal) := fun k => by
    rw [hm, hr k, EReal.coe_sub]
  have hv : var e = (((∑ k, (r k - (∑ k, r k) * (1 / 768)) * (r k - (∑ k, r k) * (1 / 768))) * (1 / 768) : ℝ) : EReal) := by
    unfold var
    rw [c768_eq, Ideal.div_coe h768, EReal.coe_mul, coe_sum]
    congr 1; exact Finset.sum_congr rfl fun k _ => by rw [hc k, EReal.coe_mul]
  refine ⟨(∑ k, (r k - (∑ k, r k) * (1 / 768)) * (r k - (∑ k, r k) * (1 / 768))) * (1 / 768) + ε, ?_, ?_⟩
  · have h0 : 0 ≤ (∑ k, (r k - (∑ k, r k) * (1 / 768)) * (r k - (∑ k, r k) * (1 / 768))) * (1 / 768 : ℝ) :=
      mul_nonneg (Finset.sum_nonneg fun k _ => mul_self_nonneg _) (by norm_num)
    linarith
  · rw [hv, hεq, EReal.coe_add]

/-- On a row of reals the two arrangements give the same row, whatever the scale and the shift are. -/
theorem rowK_eq_rowR (e g b : Fin 768 → EReal) (he : ∀ k, Cert.RealValued.IsReal (e k)) :
    Cert.LN.rowK e g b = Cert.LN.rowR e g b := by
  funext h
  unfold rowK rowR
  rw [mul_rsqrt_eq_div_sqrt _ (var_add_eps_pos e he)]

/-- On real data and real position rows the two whole-array results agree. -/
theorem lnK_eq_lnR (x : Cert.LN.SX.Idx → EReal) (p : Cert.LN.SP.Idx → EReal) (g b : Cert.LN.SV.Idx → EReal)
    (hx : ∀ i, Cert.RealValued.IsReal (x i)) (hp : ∀ i, Cert.RealValued.IsReal (p i)) :
    Cert.LN.lnK x p g b = Cert.LN.lnR x p g b := by
  funext i
  exact congrFun (rowK_eq_rowR (embRow x p (i 0) (i 1)) (vec g) (vec b)
    (fun k => (hx (ix3 (i 0) (i 1) k)).add (hp (ix2 (i 1) k)))) (i 2)

end Cert.LN

end
-- ==== Proof.Finite.lean ====
/-
  The precondition read back: every entry of the data array and of the position array is a real number.

  The printed predicate is the conjunction, over the four arguments, of "every entry has absolute value strictly
  below +∞": for each argument an elementwise comparison of |·| with the word of +∞, reduced by "and" over all
  axes to one bit, and the four bits joined by "and". The claim that the result is 1 therefore gives, argument by
  argument and entry by entry, |z| < +∞. On the extended reals |z| = max z (-z) is +∞ at both infinities, so such a
  z is neither of them: it is the image of a real number. Only the first two arguments are needed here.
-/
import proofs.«114825_g83047487635803_cont_sun_m_1218_21_alg».proof.Pre_finite_inputs
import proofs.«114825_g83047487635803_cont_sun_m_1218_21_alg».proof.Proof.Spec
import proofs.«114825_g83047487635803_cont_sun_m_1218_21_alg».proof.Proof.LibRealValued
import Idealize.ShloMosaic.Lib.ReduceAll

noncomputable section

namespace Cert.LN

open Idealize.ShloMosaic Idealize.ShloMosaic.ValueIdx Cert.RealValued

/-- The rank-0 shape has one index. -/
instance : Subsingleton Cert.Pre_finite_inputs.S_.Idx := ⟨fun a b => funext fun d => d.elim0⟩

/-- The word with all exponent bits set and a zero significand denotes +∞. -/
theorem ofBits_inf : Ideal.ofBits .f32 0x7F800000#32 = ⊤ := by simp [Ideal.ofBits, Ideal.ieee]

/-- An extended real whose absolute value max z (-z) is strictly below +∞ is the image of a real: at either
    infinity the absolute value is +∞, which is not below itself. -/
theorem isReal_of_abs_lt_inf (z : EReal)
    (h : Ideal.cmp .olt (max z (-z)) (Ideal.ofBits .f32 0x7F800000#32) = 1#1) : IsReal z := by
  rw [ofBits_inf] at h
  induction z using EReal.rec with
  | bot => simp [Ideal.cmp] at h
  | top => simp [Ideal.cmp] at h
  | coe r => exact ⟨r, rfl⟩

/-- THE PRECONDITION DECODED: the data and the position rows are real at every index. -/
theorem finite_of_pre [hP : Cert.Pre_finite_inputs.Facts] (x : FVec Ideal Cert.LN.SX .f32) (p : FVec Ideal Cert.LN.SP .f32)
    (g b : FVec Ideal Cert.LN.SV .f32)
    (h : Cert.Pre_finite_inputs.fn (F := Ideal) x p g b = (fun _ => 1#1)) :
    (∀ i, Cert.RealValued.IsReal (x i)) ∧ (∀ i, Cert.RealValued.IsReal (p i)) := by
  have e := congrFun h ValueIdx.ix0
  dsimp only [Cert.Pre_finite_inputs.fn, Cert.Pre_finite_inputs.fn_part1, andi] at e
  obtain ⟨e1, -⟩ := IntOp.andi_eq_one.1 e
  obtain ⟨e2, -⟩ := IntOp.andi_eq_one.1 e1
  obtain ⟨ex, ep⟩ := IntOp.andi_eq_one.1 e2
  exact ⟨fun i => isReal_of_abs_lt_inf _ (Host.reduce_andi_all _ _ _ _ _ ex i),
    fun i => isReal_of_abs_lt_inf _ (Host.reduce_andi_all _ _ _ _ _ ep i)⟩

end Cert.LN

end
-- ==== Proof.lean ====
/-
  The certificate: a fused position-embedding add and LayerNorm kernel against its array-level reference.

  Both programs compute, for every batch slab `a`, sequence row `R` and lane `h`, the LayerNorm over the 768 lanes of
  the row `x (a, R, ·) + p (R, ·)`, scaled by `g h` and shifted by `b h`. The kernel walks the 8192 rows in eleven
  blocks of 768 — the last one hangs over the arrays' end and its transfers are cut to 512 rows — and multiplies the
  centred entry by the reciprocal square root of variance plus ε; the reference looks the position rows up by the
  index table 0 … 8191 (every index in range, so the lookup is the row itself) and divides by the square root.

  * The two arrangements agree on rows of real numbers: variance plus ε is then a positive real `v`, and
    `c · (√v)⁻¹ = c / √v`. This is where the precondition is used: every entry of `x` and `p` is finite, so every
    row is a row of reals. (With an infinite entry the row's mean is infinite and the two sides need not agree.)
  * On exact numbers the kernel's result array is the reciprocal-square-root arrangement, read off its pipeline's
    run block by block; each row of a block's result depends on the same row of the block's inputs only, so the
    rows past the arrays' end in the last block, which hold unnamed numbers, do not reach the rows written back.
  * The word-level kernel's frame says nothing of the result's contents: there the lane sum is not known to be
    row-local, so its proof data constrains no buffer.
  * The idealization rewrote nothing, so the preservation claim is empty.
-/
import proofs.«114825_g83047487635803_cont_sun_m_1218_21_alg».proof.Defs
import proofs.«114825_g83047487635803_cont_sun_m_1218_21_alg».proof.Proof.Gen.Kernel
import proofs.«114825_g83047487635803_cont_sun_m_1218_21_alg».proof.Proof.Gen.KernelIdeal
import proofs.«114825_g83047487635803_cont_sun_m_1218_21_alg».proof.Proof.Gen.ReferenceIdeal
import proofs.«114825_g83047487635803_cont_sun_m_1218_21_alg».proof.Proof.Gen.Pre_finite_inputs
import proofs.«114825_g83047487635803_cont_sun_m_1218_21_alg».proof.Proof.WFrame
import proofs.«114825_g83047487635803_cont_sun_m_1218_21_alg».proof.Proof.KVal
import proofs.«114825_g83047487635803_cont_sun_m_1218_21_alg».proof.Proof.RefValue
import proofs.«114825_g83047487635803_cont_sun_m_1218_21_alg».proof.Proof.Algebra
import proofs.«114825_g83047487635803_cont_sun_m_1218_21_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.WordFrame.frame m ρ

/-- The idealized kernel runs and leaves its arguments unchanged. -/
theorem frame_ki : Cert.frame_KernelIdeal := fun m ρ _ => Cert.KernelIdeal.Data.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.LN.Ref.run m ρ)

/-- The idealization rewrote nothing. -/
theorem preserves : Cert.preserves_Kernel_KernelIdeal := trivial

/-- From memories that agree on the four finite argument arrays the two idealized programs end with the same
    result: the kernel's is the reciprocal-square-root arrangement, the reference's the divide-by-square-root one,
    and the two agree because every row is a row of reals. -/
theorem algebraic : Cert.algebraic_KernelIdeal_ReferenceIdeal := by
  intro m ρ m' ρ' hpre hagree
  refine ⟨_, Cert.KernelIdeal.Data.run m ρ, ?_⟩
  refine (θ_run Cert.ReferenceIdeal.defs _ _).mono (fun _ h c => ⟨(h c).1.trans ?_, (h c).2⟩) (Cert.LN.Ref.run m' ρ')
  rw [(hagree c).1, (hagree c).2.1, (hagree c).2.2.1, (hagree c).2.2.2]
  obtain ⟨hx, hp⟩ := Cert.LN.finite_of_pre _ _ _ _ (hpre c)
  exact (Cert.LN.lnK_eq_lnR _ _ _ _ hx hp).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
